-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S128x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S2048x2048 .f32) (main_arg2 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S2x2048x2048 : Shape := ⟨3, ![2, 2048, 2048]⟩
abbrev S2x1x2048 : Shape := ⟨3, ![2, 1, 2048]⟩
abbrev S128x2048 : Shape := ⟨2, ![128, 2048]⟩
abbrev S1x2048x2048 : Shape := ⟨3, ![1, 2048, 2048]⟩
abbrev S1x1x2048 : Shape := ⟨3, ![1, 1, 2048]⟩
abbrev S128 : Shape := ⟨1, ![128]⟩
abbrev S128x1 : Shape := ⟨2, ![128, 1]⟩
abbrev S2048x1 : Shape := ⟨2, ![2048, 1]⟩
abbrev S_ : Shape := ⟨0, ![]⟩

abbrev nBuf : Space → Nat
  | .hbm => 43
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S2x2048x2048, .f32⟩
  | .hbm, ⟨9, _⟩ => ⟨S2x1x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S2048x2048, .f32⟩
  | .hbm, ⟨15, _⟩ => ⟨S1x1x2048, .f32⟩
  | .hbm, ⟨16, _⟩ => ⟨S1x2048, .f32⟩
  | .hbm, ⟨17, _⟩ => ⟨S1x1x2048, .f32⟩
  | .hbm, ⟨18, _⟩ => ⟨S1x2048, .f32⟩
  | .hbm, ⟨19, _⟩ => ⟨S1x2048, .f32⟩
  | .hbm, ⟨20, _⟩ => ⟨S2048, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S2048x1, .f32⟩
  | .hbm, ⟨41, _⟩ => ⟨S2048x2048, .f32⟩
  | .hbm, ⟨42, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048x2048, .f32⟩
  | .local _ .vmem, ⟨6, _⟩ => ⟨S1x1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

class Facts₀ : Prop where
  bitsLt_bf16_f32 : FTy.bits .bf16 < FTy.bits .f32
  shapeCasts_S2048_S1x2048 : S2048.ShapeCasts S1x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  shapeCasts_S2048x2048_S1x2048x2048 : S2048x2048.ShapeCasts S1x2048x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S128x2048_S128x2048_0_0 : ∀ a, (![0, 0] : Fin 2 → Nat) a + S128x2048.size a ≤ S128x2048.size a
  h_S128x2048 : 0 < S128x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  reduces_S128x2048_S128 : S128x2048.Reduces [1] S128
  shapeCasts_S128_S128x1 : S128.ShapeCasts S128x1
  broadcasts_S128x1_S128x2048 : S128x1.Broadcasts S128x2048
  reduces_S128x2048_S2048 : S128x2048.Reduces [0] S2048
  slices_S2x2048x2048_S1x2048x2048_0_0_0 : S2x2048x2048.Slices ![0, 0, 0] S1x2048x2048
  slices_S2x2048x2048_S1x2048x2048_1_0_0 : S2x2048x2048.Slices ![1, 0, 0] S1x2048x2048
  slices_S2x1x2048_S1x1x2048_0_0_0 : S2x1x2048.Slices ![0, 0, 0] S1x1x2048
  slices_S2x1x2048_S1x1x2048_1_0_0 : S2x1x2048.Slices ![1, 0, 0] S1x1x2048
  shapeCasts_S1x2048_S2048 : S1x2048.ShapeCasts S2048
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  reducesTo_S2048x2048_S2048_d1 : S2048x2048.ReducesTo [1] S2048
  h_S_ : 0 < S_.numel
  bcast_S_S2048 : S_.BroadcastsInDim S2048 (![] : Fin 0 → Fin S2048.rank)
  dot_S128x2048_S2048x2048_S128x2048_1_1_0_0_n_n_wf : DotDims.WF S128x2048 S2048x2048 S128x2048 [1] [1] [0] [0] [] []
  dot_S128x2048_S128x2048_S2048x2048_0_0_1_1_n_n_wf : DotDims.WF S128x2048 S128x2048 S2048x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .f32 = 32 ∨ (Rect.block (s := S4096x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048x2048.size a ≤ S2x2048x2048.size a
  hwx0_4 : ∀ i : grid0.Coords, EltTy.bits .f32 = 32 ∨ (Rect.block (s := S2x2048x2048) S1x2048x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S2x1x2048.size a
  hwx0_5 : ∀ i : grid0.Coords, EltTy.bits .f32 = 32 ∨ (Rect.block (s := S2x1x2048) S1x1x2048.size (cc0_transform_5 i) (hinb0_5 i)).WholeWords (EltTy.packing .f32)

variable [Facts₀]

def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf
def dot_S128x2048_S128x2048_S2048x2048_0_0_1_1_n_n : DotDims S128x2048 S128x2048 S2048x2048 where
  lhsContracting := [0]
  rhsContracting := [0]
  lhsNonContracting := [1]
  rhsNonContracting := [1]
  lhsBatch := []
  rhsBatch := []
  wf := dot_S128x2048_S128x2048_S2048x2048_0_0_1_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1x2048x2048.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x1x2048.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S2048x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S2048x1, .f32⟩
  | .hbm, ⟨51, _⟩ => ⟨S2048x2048, .f32⟩
  | .hbm, ⟨52, _⟩ => ⟨S2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_call0_v0 : Ref sig .tc := ⟨.hbm, 36, rfl⟩
abbrev main_call0_cst : Ref sig .tc := ⟨.hbm, 37, rfl⟩
abbrev main_call0_v1 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  reducesTo_S4096x2048_S4096_d1 : S4096x2048.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x2048_0_1 : S4096x1.BroadcastsInDim S4096x2048 (![0, 1] : Fin 2 → Fin S4096x2048.rank)
  reducesTo_S4096x2048_S2048_d0 : S4096x2048.ReducesTo [0] S2048
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  reducesTo_S2048x2048_S2048_d1 : S2048x2048.ReducesTo [1] S2048
  bcast_S_S2048 : S_.BroadcastsInDim S2048 (![] : Fin 0 → Fin S2048.rank)
  dot_S4096x2048_S2048x2048_S4096x2048_1_0_0_1_n_n_wf : DotDims.WF S4096x2048 S2048x2048 S4096x2048 [1] [0] [0] [1] [] []
  dot_S4096x2048_S4096x2048_S2048x2048_0_0_1_1_n_n_wf : DotDims.WF S4096x2048 S4096x2048 S2048x2048 [0] [0] [1] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S4096x2048_S2048x2048_0_0_1_1_n_n : DotDims S4096x2048 S4096x2048 S2048x2048 where
  lhsContracting := [0]
  rhsContracting := [0]
  lhsNonContracting := [1]
  rhsNonContracting := [1]
  lhsBatch := []
  rhsBatch := []
  wf := dot_S4096x2048_S4096x2048_S2048x2048_0_0_1_1_n_n_wf

class Facts : Prop extends Facts₀ where

variable [Facts]
-- ==== Proof.HebbAlgebra.lean ====
/-
  The arithmetic that joins the two spellings of the Hebbian step, free of any program.

  * The batch of 4096 rows is cut into 32 tiles of 128 rows: row `r` of tile `t` is row `128 t + r`, and a sum over the
    batch is the sum over the tiles of the sums over a tile's rows (`sum_rows_tiles`).
  * An accumulator that is reset at tiles 0 and 16 and adds one tile's contribution at every tile holds, after tile `n`,
    the sum over the tiles of `n`'s half up to `n` (`upTo n`); the two halves' totals add up to the sum over all 32 tiles
    (`sum_upTo_total`).
  * On the extended reals the square root and the power with exponent one half agree at every absolute value: at `⊤` both
    are `⊤`, and at a real `r ≥ 0` both are `√r` (`pow_half_abs`). They differ only below zero, where an absolute value
    never is.
  * `a - a = 0` at a real `a` (`sub_self_of_real`): the low-order parts of the split operands vanish when the entries are finite.
-/
import Idealize.ShloMosaic.PureOps.Ideal.Laws
import Idealize.ShloMosaic.Lib.ValueIdx

noncomputable section

open scoped BigOperators

namespace Hebb

open Idealize.ShloMosaic Idealize.ShloMosaic.ValueIdx

/-! ## Tiles of the batch -/

/-- Row `r` of batch tile `t`: row `128 t + r` of the batch. -/
abbrev rowOf (t : Fin 32) (r : Fin 128) : Fin 4096 :=
  ⟨r.val + 128 * t.val, by have := t.isLt; have := r.isLt; omega⟩

/-- (tile, row in the tile) ↔ row of the batch. -/
def tileEquiv : Fin 32 × Fin 128 ≃ Fin 4096 where
  toFun p := rowOf p.1 p.2
  invFun b := (⟨b.val / 128, by have := b.isLt; omega⟩, ⟨b.val % 128, Nat.mod_lt _ (by decide)⟩)
  left_inv p := Prod.ext
    (Fin.ext (by show (p.2.val + 128 * p.1.val) / 128 = p.1.val; have := p.2.isLt; omega))
    (Fin.ext (by show (p.2.val + 128 * p.1.val) % 128 = p.2.val; have := p.2.isLt; omega))
  right_inv b := Fin.ext (by show b.val % 128 + 128 * (b.val / 128) = b.val; omega)

/-- A sum over the batch is the sum over the tiles of the sums over each tile's rows. -/
theorem sum_rows_tiles {M : Type} [AddCommMonoid M] (f : Fin 4096 → M) :
    ∑ b : Fin 4096, f b = ∑ t : Fin 32, ∑ r : Fin 128, f (rowOf t r) := by
  rw [← Equiv.sum_comp tileEquiv f, Fintype.sum_prod_type]
  rfl

/-! ## An accumulator reset at the first tile of each half -/

/-- The tiles of `n`'s half (tiles 0–15, or 16–31) up to and including `n`. -/
def upTo (n : ℕ) : Finset (Fin 32) := Finset.univ.filter fun t => t.val / 16 = n / 16 ∧ t.val ≤ n

theorem upTo_first {n : ℕ} (hn : n < 32) (h0 : n % 16 = 0) : upTo n = {⟨n, hn⟩} := by
  ext t
  have := t.isLt
  simp only [upTo, Finset.mem_filter, Finset.mem_univ, true_and, Finset.mem_singleton, Fin.ext_iff]
  omega

theorem upTo_next {n : ℕ} (hn : n < 32) (h0 : ¬n % 16 = 0) : upTo n = insert ⟨n, hn⟩ (upTo (n - 1)) := by
  ext t
  have := t.isLt
  simp only [upTo, Finset.mem_filter, Finset.mem_univ, true_and, Finset.mem_insert, Fin.ext_iff]
  omega

theorem not_mem_upTo_pred {n : ℕ} (hn : n < 32) (h0 : ¬n % 16 = 0) : (⟨n, hn⟩ : Fin 32) ∉ upTo (n - 1) := by
  simp only [upTo, Finset.mem_filter, Finset.mem_univ, true_and]
  omega

/-- At the first tile of a half the accumulator holds that tile's contribution alone; -/
theorem sum_upTo_first {M : Type} [AddCommMonoid M] (f : Fin 32 → M) {n : ℕ} (hn : n < 32) (h0 : n % 16 = 0) :
    ∑ t ∈ upTo n, f t = f ⟨n, hn⟩ := by
  rw [upTo_first hn h0, Finset.sum_singleton]

/-- at a later tile, what it held one tile before plus this tile's contribution. -/
theorem sum_upTo_next {M : Type} [AddCommMonoid M] (f : Fin 32 → M) {n : ℕ} (hn : n < 32) (h0 : ¬n % 16 = 0) :
    ∑ t ∈ upTo n, f t = (∑ t ∈ upTo (n - 1), f t) + f ⟨n, hn⟩ := by
  rw [upTo_next hn h0, Finset.sum_insert (not_mem_upTo_pred hn h0), add_comm]

/-- The two halves' totals (after tiles 15 and 31) add up to the sum over all 32 tiles. -/
theorem sum_upTo_total {M : Type} [AddCommMonoid M] (f : Fin 32 → M) :
    (∑ t ∈ upTo 15, f t) + (∑ t ∈ upTo 31, f t) = ∑ t : Fin 32, f t := by
  have h15 : upTo 15 = Finset.univ.filter (fun t : Fin 32 => t.val < 16) := by
    ext t
    have := t.isLt
    simp only [upTo, Finset.mem_filter, Finset.mem_univ, true_and]
    omega
  have h31 : upTo 31 = Finset.univ.filter (fun t : Fin 32 => ¬t.val < 16) := by
    ext t
    have := t.isLt
    simp only [upTo, Finset.mem_filter, Finset.mem_univ, true_and]
    omega
  rw [h15, h31, Finset.sum_filter_add_sum_filter_not]

/-! ## The extended reals -/

/-- The pattern of `0.5` denotes one half. -/
theorem ofBits_half : Ideal.ofBits .f32 0x3F000000#32 = ((1 / 2 : ℝ) : EReal) := by
  simp [Ideal.ofBits, Ideal.ieee, -EReal.coe_mul]; norm_num

/-- The pattern of the positive infinity denotes `⊤`. -/
theorem ofBits_posInf : Ideal.ofBits .f32 0x7F800000#32 = ⊤ := by
  simp [Ideal.ofBits, Ideal.ieee]

/-- At an absolute value the power with exponent one half is the square root: both are `⊤` at `⊤`, and `√r` at a real
    `r ≥ 0`. -/
theorem pow_half_abs (a : EReal) :
    Ideal.pow (max a (-a)) (Ideal.ofBits .f32 0x3F000000#32) = Ideal.sqrt (max a (-a)) := by
  rw [ofBits_half]
  induction a using EReal.rec with
  | bot =>
    rw [EReal.neg_bot, max_eq_right bot_le, Ideal.pow_top, Ideal.sqrt_top, if_pos (by exact_mod_cast (by norm_num : (0 : ℝ) < 1 / 2))]
  | top =>
    rw [EReal.neg_top, max_eq_left bot_le, Ideal.pow_top, Ideal.sqrt_top, if_pos (by exact_mod_cast (by norm_num : (0 : ℝ) < 1 / 2))]
  | coe r =>
    have hmax : max (r : EReal) (-(r : EReal)) = ((max r (-r) : ℝ) : EReal) := by
      rw [← EReal.coe_neg]
      rcases le_total r (-r) with h | h
      · rw [max_eq_right h, max_eq_right (EReal.coe_le_coe_iff.mpr h)]
      · rw [max_eq_left h, max_eq_left (EReal.coe_le_coe_iff.mpr h)]
    have hnn : ¬max r (-r) < 0 := not_lt.mpr (le_max_iff.mpr (by
      rcases le_total 0 r with h | h
      · exact Or.inl h
      · exact Or.inr (neg_nonneg.mpr h)))
    rw [hmax, Ideal.pow_coe_coe, Ideal.sqrt_coe, if_neg hnn]
    exact congrArg (fun z : ℝ => (z : EReal)) (Real.sqrt_eq_rpow _).symm

/-- A real minus itself is zero on the extended reals (at `±∞` it is not). -/
theorem sub_self_of_real (r : ℝ) : ((r : EReal) - (r : EReal)) = 0 := by
  rw [← EReal.coe_sub, sub_self, EReal.coe_zero]

end Hebb

end
-- ==== Proof.Finite.lean ====
/-
  From the precondition to "every entry is a real number".

  The precondition takes, for each of the three arrays, the absolute value of every entry, asks whether it lies strictly
  below the positive infinity, and joins all the answers with "and". When the result is 1, every single answer is 1. For
  one entry `a` of the extended reals the answer "|a| < ⊤" (with |a| = max a (-a)) is 1 only when `a` is a real number:
  at `⊥` and at `⊤` the absolute value is `⊤`, and `⊤ < ⊤` is false.
-/
import proofs.«159458_j55697135895031_2_alg».proof.Pre_finite_inputs
import proofs.«159458_j55697135895031_2_alg».proof.Proof.Gen.Pre_finite_inputs
import proofs.«159458_j55697135895031_2_alg».proof.Proof.HebbAlgebra
import Idealize.ShloMosaic.PureOps.Ideal.Laws
import Idealize.ShloMosaic.Lib.ReduceAll
import Idealize.ShloMosaic.Lib.ValueIdx

noncomputable section

namespace Cert.Pre_finite_inputs.Finite

open Cert.Pre_finite_inputs Idealize.ShloMosaic

/-- The shape of rank 0 has one index. -/
instance subsingleton_S_ : Subsingleton S_.Idx := ⟨fun a b => funext fun d => d.elim0⟩

/-- `⊤ < ⊤` is false: the comparison's answer is not 1. -/
theorem cmp_top_top_ne : ¬Ideal.cmp .olt (⊤ : EReal) ⊤ = 1#1 := by
  intro h
  have h' : BitVec.ofBool (decide ((⊤ : EReal) < ⊤)) = 1#1 := h
  rw [decide_eq_false (lt_irrefl _)] at h'
  exact absurd h' (by decide)

/-- An extended real whose absolute value is strictly below `⊤` is a real number. -/
theorem real_of_abs_lt_top (a : EReal) (h : Ideal.cmp .olt (max a (-a)) ⊤ = 1#1) : ∃ r : ℝ, a = (r : EReal) := by
  induction a using EReal.rec with
  | bot =>
    rw [EReal.neg_bot, max_eq_right bot_le] at h
    exact absurd h cmp_top_top_ne
  | top =>
    rw [EReal.neg_top, max_eq_left bot_le] at h
    exact absurd h cmp_top_top_ne
  | coe r => exact ⟨r, rfl⟩

/-- One answer of the elementwise test "|x| < +∞" at index `i`, read back: `x i` is a real number. -/
theorem real_of_bit {s : Shape} (hb : S_.BroadcastsInDim s (![] : Fin 0 → Fin s.rank)) (x : s.Idx → EReal) (i : s.Idx)
    (h : cmpf (F := Ideal) .olt (Host.absf (F := Ideal) (φ := .f32) x)
          (broadcastInDim s ![] hb (constant (F := Ideal) S_ .f32 0x7F800000#32)) i = 1#1) :
    ∃ r : ℝ, x i = (r : EReal) := by
  have h' : Ideal.cmp .olt (max (x i) (-(x i))) (Ideal.ofBits .f32 0x7F800000#32) = 1#1 := h
  rw [Hebb.ofBits_posInf] at h'
  exact real_of_abs_lt_top _ h'

/-- The precondition holds only when every entry of the three arrays is a real number. -/
theorem finite_of_pre (x : S4096x2048.Idx → EReal) (W : S2048x2048.Idx → EReal) (bias : S2048.Idx → EReal)
    (h : Cert.Pre_finite_inputs.fn (F := Ideal) x W bias = fun _ => 1#1) :
    (∀ j, ∃ r : ℝ, x j = (r : EReal)) ∧ (∀ j, ∃ r : ℝ, W j = (r : EReal)) ∧ (∀ j, ∃ r : ℝ, bias j = (r : EReal)) := by
  have e := congrFun h ValueIdx.ix0
  unfold Cert.Pre_finite_inputs.fn at e
  simp only [andi] at e
  obtain ⟨h12, h3⟩ := IntOp.andi_eq_one.1 e
  obtain ⟨h1, h2⟩ := IntOp.andi_eq_one.1 h12
  refine ⟨fun j => ?_, fun j => ?_, fun j => ?_⟩
  · exact real_of_bit _ x j (Host.reduce_andi_all _ _ _ _ _ h1 j)
  · exact real_of_bit _ W j (Host.reduce_andi_all _ _ _ _ _ h2 j)
  · exact real_of_bit _ bias j (Host.reduce_andi_all _ _ _ _ _ h3 j)

end Cert.Pre_finite_inputs.Finite

end
-- ==== Proof.Pieces.lean ====
/-
  What one run of the kernel body leaves in the two accumulators' staging buffers, as values of what it loaded.

  The body has two cases. At the first batch tile of each half of the grid it stores zeros to both accumulators and then
  adds to what it reads back; at every other tile it adds to what the tile before left. In either case each accumulator
  ends with ONE value covering its whole buffer: for the matrix accumulator the old contents plus the product of the
  tile's softmax (transposed) with the tile, for the row accumulator the old contents plus the column sums of softmax
  times logits. These four lemmas name those values; they hold for any float values.
-/
import proofs.«159458_j55697135895031_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- After a tile that is not the first of its half, the matrix accumulator's buffer, which held `xo4`, holds `xo4` plus
    the tile's product: the one covering store's value, its loads reading whole buffers. -/
theorem out_B_4 (c : Dev nD) (i : grid0.Coords) (a2 : Memref sig .tc .vmem S128x2048 .f32) (h2 : a2.IsWhole) (a3 : Memref sig .tc .vmem S2048x2048 .bf16) (h3 : a3.IsWhole) (a4 : Memref sig .tc .vmem S2048x2048 .bf16) (h4 : a4.IsWhole) (a5 : Memref sig .tc .vmem S1x2048 .f32) (h5 : a5.IsWhole) (a6 : Memref sig .tc .vmem S1x2048x2048 .f32) (h6 : a6.IsWhole) (a7 : Memref sig .tc .vmem S1x1x2048 .f32) (h7 : a7.IsWhole) (hc : ¬cond0_0 i)
    (x0 : Vec F S128x2048 .f32) (x1 : Vec F S2048x2048 .bf16) (x2 : Vec F S2048x2048 .bf16) (x3 : Vec F S1x2048 .f32)
    (xo4 : Vec F S1x2048x2048 .f32) (xo5 : Vec F S1x1x2048 .f32) :
    out0_B_4 c i a2 h2 a3 h3 a4 h4 a5 h5 a6 h6 a7 h7 hc x0 x1 x2 x3 xo4 xo5 = k0_pay2 (k0_pay5 x0) (k0_pay7 x0 x1 x2 x3) xo4 := by
  unfold out0_B_4
  rw [View.read_writes_eq_canon _ _ _ (cover0_B_4 c i a2 h2 a3 h3 a4 h4 a5 h5 a6 h6 a7 h7 hc x0 x1 x2 x3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread,
    View.ld_unit_zero (S := S128x2048) hz2, View.ld_unit_zero (S := S2048x2048) hz2, View.ld_unit_zero (S := S1x2048) hz2,
    View.ld_unit_zero (S := S1x2048x2048) hz3, View.ld_unit_zero (S := S1x1x2048) hz3]

/-- Likewise the row accumulator's buffer, which held `xo5`, holds `xo5` plus the tile's column sums. -/
theorem out_B_5 (c : Dev nD) (i : grid0.Coords) (a2 : Memref sig .tc .vmem S128x2048 .f32) (h2 : a2.IsWhole) (a3 : Memref sig .tc .vmem S2048x2048 .bf16) (h3 : a3.IsWhole) (a4 : Memref sig .tc .vmem S2048x2048 .bf16) (h4 : a4.IsWhole) (a5 : Memref sig .tc .vmem S1x2048 .f32) (h5 : a5.IsWhole) (a6 : Memref sig .tc .vmem S1x2048x2048 .f32) (h6 : a6.IsWhole) (a7 : Memref sig .tc .vmem S1x1x2048 .f32) (h7 : a7.IsWhole) (hc : ¬cond0_0 i)
    (x0 : Vec F S128x2048 .f32) (x1 : Vec F S2048x2048 .bf16) (x2 : Vec F S2048x2048 .bf16) (x3 : Vec F S1x2048 .f32)
    (xo4 : Vec F S1x2048x2048 .f32) (xo5 : Vec F S1x1x2048 .f32) :
    out0_B_5 c i a2 h2 a3 h3 a4 h4 a5 h5 a6 h6 a7 h7 hc x0 x1 x2 x3 xo4 xo5 = k0_pay1 (k0_pay8 xo5) (k0_pay9 x0 x1 x2 x3) := by
  unfold out0_B_5
  rw [View.read_writes_eq_canon _ _ _ (cover0_B_5 c i a2 h2 a3 h3 a4 h4 a5 h5 a6 h6 a7 h7 hc x0 x1 x2 x3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread,
    View.ld_unit_zero (S := S128x2048) hz2, View.ld_unit_zero (S := S2048x2048) hz2, View.ld_unit_zero (S := S1x2048) hz2,
    View.ld_unit_zero (S := S1x2048x2048) hz3, View.ld_unit_zero (S := S1x1x2048) hz3]

/-- At the first tile of a half the body first stores zeros, then reads them back: the matrix accumulator ends at zero
    plus the tile's product. -/
theorem out_A_4 (c : Dev nD) (i : grid0.Coords) (a2 : Memref sig .tc .vmem S128x2048 .f32) (h2 : a2.IsWhole) (a3 : Memref sig .tc .vmem S2048x2048 .bf16) (h3 : a3.IsWhole) (a4 : Memref sig .tc .vmem S2048x2048 .bf16) (h4 : a4.IsWhole) (a5 : Memref sig .tc .vmem S1x2048 .f32) (h5 : a5.IsWhole) (a6 : Memref sig .tc .vmem S1x2048x2048 .f32) (h6 : a6.IsWhole) (a7 : Memref sig .tc .vmem S1x1x2048 .f32) (h7 : a7.IsWhole) (hc : cond0_0 i)
    (x0 : Vec F S128x2048 .f32) (x1 : Vec F S2048x2048 .bf16) (x2 : Vec F S2048x2048 .bf16) (x3 : Vec F S1x2048 .f32) :
    out0_A_4 c i a2 h2 a3 h3 a4 h4 a5 h5 a6 h6 a7 h7 hc x0 x1 x2 x3 = k0_pay2 (k0_pay5 x0) (k0_pay7 x0 x1 x2 x3) k0_pay3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_cons_unit_zero (S := S1x2048x2048) hz3, View.readCov_unit_zero (S := S1x2048x2048) _ hz3]
  simp only [View.readAt_eq_ld, h2.read_unread, h3.read_unread, h4.read_unread, h5.read_unread, h6.read_unread, h7.read_unread,
    View.ld_unit_zero (S := S128x2048) hz2, View.ld_unit_zero (S := S2048x2048) hz2, View.ld_unit_zero (S := S1x2048) hz2,
    View.ld_unit_zero (S := S1x2048x2048) hz3, View.ld_unit_zero (S := S1x1x2048) hz3]

/-- And the row accumulator at zero plus the tile's column sums. -/
theorem out_A_5 (c : Dev nD) (i : grid0.Coords) (a2 : Memref sig .tc .vmem S128x2048 .f32) (h2 : a2.IsWhole) (a3 : Memref sig .tc .vmem S2048x2048 .bf16) (h3 : a3.IsWhole) (a4 : Memref sig .tc .vmem S2048x2048 .bf16) (h4 : a4.IsWhole) (a5 : Memref sig .tc .vmem S1x2048 .f32) (h5 : a5.IsWhole) (a6 : Memref sig .tc .vmem S1x2048x2048 .f32) (h6 : a6.IsWhole) (a7 : Memref sig .tc .vmem S1x1x2048 .f32) (h7 : a7.IsWhole) (hc : cond0_0 i)
    (x0 : Vec F S128x2048 .f32) (x1 : Vec F S2048x2048 .bf16) (x2 : Vec F S2048x2048 .bf16) (x3 : Vec F S1x2048 .f32) :
    out0_A_5 c i a2 h2 a3 h3 a4 h4 a5 h5 a6 h6 a7 h7 hc x0 x1 x2 x3 = k0_pay1 (k0_pay8 k0_pay4) (k0_pay9 x0 x1 x2 x3) := by
  unfold out0_A_5
  rw [View.read_writes_eq_canon _ _ _ (cover0_A_5 c i a2 h2 a3 h3 a4 h4 a5 h5 a6 h6 a7 h7 hc x0 x1 x2 x3)]
  unfold kernelRun0_A
  dsimp only
  sl_unfold_words
  rw [View.canon_cons_unit_zero (S := S1x1x2048) hz3, View.readCov_unit_zero (S := S1x1x2048) _ hz3]
  simp only [View.readAt_eq_ld, h2.read_unread, h3.read_unread, h4.read_unread, h5.read_unread, h6.read_unread, h7.read_unread,
    View.ld_unit_zero (S := S128x2048) hz2, View.ld_unit_zero (S := S2048x2048) hz2, View.ld_unit_zero (S := S1x2048) hz2,
    View.ld_unit_zero (S := S1x2048x2048) hz3, View.ld_unit_zero (S := S1x1x2048) hz3]

end Cert.KernelIdeal.Pieces

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibSoftmaxRows.lean ====
/-
  A softmax along the rows of a matrix, read AT AN INDEX at the ideal values, for kernels and references that spell it the
  numerically careful way: subtract the row's maximum, exponentiate, divide by the row's sum, with both reductions kept as a
  column (`keepdims`) and broadcast back along the row.

  * `softmaxAt row init j`: the value — `exp (row j − M) / ∑ c, exp (row c − M)` with `M` the fold of `max` from `init`
    over the row;
  * `rowMax2_apply`: a `multi_reduction <maximumf>` over the second axis of a rank-2 vector, at a row, is that fold;
  * `hostLaneMax3_apply`: the host's one-operand reduce with a `maximum` body over the last axis of a rank-3 array, at
    (a, b), is the same fold over the lane coordinate;
  * `max_fold_max_self`: taking the maximum with the fold's own starting value once more changes nothing;
  * `softmaxRows_apply`: the whole keepdims chain of a kernel (maximum, cast to a column, broadcast, subtract, exponentiate,
    sum, cast, broadcast, divide) at (r, j) is `softmaxAt` of row r.

  Nothing here needs the entries to be finite: the two sides of a claim that both spell the softmax this way are the same
  function on the extended reals.
-/
import Idealize.ShloMosaic.PureOps.Ideal.Laws
import Idealize.ShloMosaic.Lib.Pipeline.Value
import Idealize.ShloMosaic.Lib.ValueIdx
import proofs.«159458_j55697135895031_2_alg».proof.Proof.LibKeepdims

noncomputable section

open scoped BigOperators

namespace Idealize.ShloMosaic.SoftmaxRows

open Idealize.ShloMosaic Idealize.ShloMosaic.ValueIdx

/-- The softmax of one row at position `j`, the row's maximum taken as a fold of `max` from `init`. -/
def softmaxAt {n : Nat} (row : Fin n → EReal) (init : EReal) (j : Fin n) : EReal :=
  Ideal.div (Ideal.exp (row j - (Finset.univ : Finset (Fin n)).fold max init row))
    (∑ c : Fin n, Ideal.exp (row c - (Finset.univ : Finset (Fin n)).fold max init row))

/-- The maximum of a fold of `max` with the value the fold started from is the fold. -/
theorem max_fold_max_self {ι : Type} (s : Finset ι) (b : EReal) (f : ι → EReal) :
    max b (s.fold max b f) = s.fold max b f :=
  max_eq_right ((Finset.le_fold_max b).mpr (Or.inl le_rfl))

/-- A maximum over the second axis of a rank-2 vector, at row a: the fold of `max` over the column coordinate. -/
theorem rowMax2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.maximumf.neutral φ hφ)
    (a : Fin n0) :
    multiReduction .maximumf [1] ⟨1, ![n0]⟩ v acc h hφ hacc (ix1 a)
      = (Finset.univ : Finset (Fin n1)).fold max (Ideal.ofBits φ acc) (fun c => v (ix2 a c)) :=
  (Ideal.multiReduction_maximumf_single v acc h hφ hacc (ix1 a)).trans
    (Finset.fold_congr fun c _ => congrArg v (funext fun d => Fin.ext (by
      match d with | ⟨0, _⟩ => rfl | ⟨1, _⟩ => rfl)))

/-- The host's reduce with a `maximum` body over the last axis of a rank-3 array, at (a, b): the fold of `max` from the
    initial value's element over the lane coordinate. -/
theorem hostLaneMax3_apply {n0 n1 n2 : Nat} {φ : FTy} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (a : Fin n0) (b : Fin n1) :
    Host.reduce (FloatOps.maximumf (F := Ideal) (φ := φ)) x init h' hu (ix2 a b)
      = (Finset.univ : Finset (Fin n2)).fold max (init (Shape.Idx.first hu)) (fun c => x (ix3 a b c)) :=
  (Host.reduce_eq_fold_single (FloatOps.maximumf (F := Ideal) (φ := φ)) x init h' h hu (ix2 a b)).trans
    (Finset.fold_congr fun c _ => congrArg x (funext fun d => Fin.ext (by
      match d with | ⟨0, _⟩ => rfl | ⟨1, _⟩ => rfl | ⟨2, _⟩ => rfl)))

/-- The keepdims softmax chain of a kernel over the rows of `s`, at (r, j): the row's maximum and the row's sum of
    exponentials each reduced to a vector, cast to a column and broadcast back along the row. -/
theorem softmaxRows_apply {n0 n1 : Nat} (s : FVec Ideal ⟨2, ![n0, n1]⟩ .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    divf (exp (subf s (broadcastTo ⟨2, ![n0, n1]⟩ (shapeCast ⟨2, ![n0, 1]⟩ (multiReduction .maximumf [1] ⟨1, ![n0]⟩ s accM hr hφ hM) hc) hb)))
        (broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb) (ix2 r j)
      = softmaxAt (fun c => s (ix2 r c)) (Ideal.ofBits .f32 accM) j := by
  have hmax : ∀ c : Fin n1, broadcastTo ⟨2, ![n0, n1]⟩ (shapeCast ⟨2, ![n0, 1]⟩ (multiReduction .maximumf [1] ⟨1, ![n0]⟩ s accM hr hφ hM) hc) hb (ix2 r c)
      = (Finset.univ : Finset (Fin n1)).fold max (Ideal.ofBits .f32 accM) (fun c => s (ix2 r c)) := fun c =>
    (Keepdims.bcast_col_apply _ hb r c).trans ((Keepdims.cast_col_apply _ hc r 0).trans (rowMax2_apply s accM hr hφ hM r))
  have hexp : ∀ c : Fin n1, exp (subf s (broadcastTo ⟨2, ![n0, n1]⟩ (shapeCast ⟨2, ![n0, 1]⟩ (multiReduction .maximumf [1] ⟨1, ![n0]⟩ s accM hr hφ hM) hc) hb)) (ix2 r c)
      = Ideal.exp (s (ix2 r c) - (Finset.univ : Finset (Fin n1)).fold max (Ideal.ofBits .f32 accM) (fun c => s (ix2 r c))) := fun c =>
    congrArg (fun m => Ideal.exp (s (ix2 r c) - m)) (hmax c)
  have hsum : broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb (ix2 r j)
      = ∑ c : Fin n1, Ideal.exp (s (ix2 r c) - (Finset.univ : Finset (Fin n1)).fold max (Ideal.ofBits .f32 accM) (fun c => s (ix2 r c))) :=
    (Keepdims.bcast_col_apply _ hb r j).trans ((Keepdims.cast_col_apply _ hc r 0).trans
      ((Keepdims.rowSum2_apply _ accS hr hφ hS r).trans (Finset.sum_congr rfl fun c _ => hexp c)))
  show Ideal.div _ _ = _
  unfold softmaxAt
  exact congrArg₂ Ideal.div (hexp j) hsum

end Idealize.ShloMosaic.SoftmaxRows

end
-- ==== Proof.LibColumnSum.lean ====
/-
  A sum over the FIRST axis of a rank-2 vector read at an index, at the ideal values: at column `b` it is the sum over the
  row coordinate (`colSum2_apply`) — the companion of a row sum (over the second axis). With a unit second extent it is the
  sum of a column vector [n, 1] into [1], the second step of a `keepdims` reduction of a block to one number.
-/
import Idealize.ShloMosaic.PureOps.Ideal.Laws
import Idealize.ShloMosaic.Lib.ValueIdx

noncomputable section

open scoped BigOperators

namespace Idealize.ShloMosaic.ColumnSum

open Idealize.ShloMosaic Idealize.ShloMosaic.ValueIdx

/-- A sum over the first axis of a rank-2 vector, at column `b`: the sum over the row coordinate. -/
theorem colSum2_apply {n0 n1 : Nat} {φ : FTy} (v : FVec Ideal ⟨2, ![n0, n1]⟩ φ) (acc : BitVec φ.bits)
    (h : (⟨2, ![n0, n1]⟩ : Shape).Reduces [0] ⟨1, ![n1]⟩) (hφ : FKind.Formats φ) (hacc : acc = FKind.add.neutral φ hφ)
    (b : Fin n1) :
    multiReduction .add [0] ⟨1, ![n1]⟩ v acc h hφ hacc (ix1 b) = ∑ a : Fin n0, v (ix2 a b) :=
  (Ideal.multiReduction_add_single v acc h hφ hacc (ix1 b)).trans
    (Finset.sum_congr rfl fun k _ => congrArg v (funext fun d => Fin.ext (by
      match d with | ⟨0, _⟩ => rfl | ⟨1, _⟩ => rfl)))

end Idealize.ShloMosaic.ColumnSum

end
-- ==== Proof.Payloads.lean ====
/-
  The kernel body's arithmetic read AT AN INDEX, at the ideal values, for one batch tile of 128 rows.

  With `x` the tile (128 × 2048), `wh`, `wl` the two parts of the weight (2048 × 2048 each) and `b` the bias row:

  * the logits at (r, o) are `(∑ₖ x(r,k)·wh(o,k) + ∑ₖ x(r,k)·wl(o,k)) + ∑ₖ (x(r,k) − x(r,k))·wh(o,k) + b(o)` — three
    products contracted over the input coordinate, the second factor read transposed (`logits_apply`);
  * the softmax at (r, o) is the softmax of row r of the logits divided by one, its maximum folded from −∞
    (`softmax_apply`): the body's extra maximum with −∞ after the reduction changes nothing;
  * the row accumulator gains, at o, the sum over the tile's rows of softmax × logits (`rowAcc_apply`);
  * the matrix accumulator gains, at (o, i), the sum over the tile's rows of softmax(r, o) · x(r, i): the product contracted
    over the ROW coordinate of both factors (`matAcc_apply`);
  * the reset values are zero everywhere (`zeroMat_apply`, `zeroRow_apply`).
-/
import proofs.«159458_j55697135895031_2_alg».proof.Proof.Gen.KernelIdeal.Skeleton
import proofs.«159458_j55697135895031_2_alg».proof.Proof.LibSoftmaxRows
import proofs.«159458_j55697135895031_2_alg».proof.Proof.LibColumnSum
import Idealize.ShloMosaic.Lib.Pipeline.Value
import Idealize.ShloMosaic.Lib.ValueIdx
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-! ## The two matrix products -/

theorem mulT_lhs0 (i : S128x2048.Idx) (q : dot_S128x2048_S2048x2048_S128x2048_1_1_0_0_n_n.contr.Idx) : (dot_S128x2048_S2048x2048_S128x2048_1_1_0_0_n_n.lhsIdx i q 0).val = (i 0).val := by
  unfold DotDims.lhsIdx
  rw [dif_neg (show ¬(0 : Fin S128x2048.rank) ∈ dot_S128x2048_S2048x2048_S128x2048_1_1_0_0_n_n.lhsBatch by decide), dif_pos (show (0 : Fin S128x2048.rank) ∈ dot_S128x2048_S2048x2048_S128x2048_1_1_0_0_n_n.lhsNonContracting by decide)]
  rfl
theorem mulT_lhs1 (i : S128x2048.Idx) (q : dot_S128x2048_S2048x2048_S128x2048_1_1_0_0_n_n.contr.Idx) : (dot_S128x2048_S2048x2048_S128x2048_1_1_0_0_n_n.lhsIdx i q 1).val = (q ⟨0, by decide⟩).val :=
  dot_S128x2048_S2048x2048_S128x2048_1_1_0_0_n_n.lhsIdx_val_of_single rfl i q
theorem mulT_rhs0 (i : S128x2048.Idx) (q : dot_S128x2048_S2048x2048_S128x2048_1_1_0_0_n_n.contr.Idx) : (dot_S128x2048_S2048x2048_S128x2048_1_1_0_0_n_n.rhsIdx i q 0).val = (i 1).val := by
  unfold DotDims.rhsIdx
  rw [dif_neg (show ¬(0 : Fin S2048x2048.rank) ∈ dot_S128x2048_S2048x2048_S128x2048_1_1_0_0_n_n.rhsBatch by decide), dif_pos (show (0 : Fin S2048x2048.rank) ∈ dot_S128x2048_S2048x2048_S128x2048_1_1_0_0_n_n.rhsNonContracting by decide)]
  rfl
theorem mulT_rhs1 (i : S128x2048.Idx) (q : dot_S128x2048_S2048x2048_S128x2048_1_1_0_0_n_n.contr.Idx) : (dot_S128x2048_S2048x2048_S128x2048_1_1_0_0_n_n.rhsIdx i q 1).val = (q ⟨0, by decide⟩).val :=
  dot_S128x2048_S2048x2048_S128x2048_1_1_0_0_n_n.rhsIdx_val_of_single rfl i q

theorem mulR_lhs0 (i : S2048x2048.Idx) (q : dot_S128x2048_S128x2048_S2048x2048_0_0_1_1_n_n.contr.Idx) : (dot_S128x2048_S128x2048_S2048x2048_0_0_1_1_n_n.lhsIdx i q 0).val = (q ⟨0, by decide⟩).val :=
  dot_S128x2048_S128x2048_S2048x2048_0_0_1_1_n_n.lhsIdx_val_of_single rfl i q
theorem mulR_lhs1 (i : S2048x2048.Idx) (q : dot_S128x2048_S128x2048_S2048x2048_0_0_1_1_n_n.contr.Idx) : (dot_S128x2048_S128x2048_S2048x2048_0_0_1_1_n_n.lhsIdx i q 1).val = (i 0).val := by
  unfold DotDims.lhsIdx
  rw [dif_neg (show ¬(1 : Fin S128x2048.rank) ∈ dot_S128x2048_S128x2048_S2048x2048_0_0_1_1_n_n.lhsBatch by decide), dif_pos (show (1 : Fin S128x2048.rank) ∈ dot_S128x2048_S128x2048_S2048x2048_0_0_1_1_n_n.lhsNonContracting by decide)]
  rfl
theorem mulR_rhs0 (i : S2048x2048.Idx) (q : dot_S128x2048_S128x2048_S2048x2048_0_0_1_1_n_n.contr.Idx) : (dot_S128x2048_S128x2048_S2048x2048_0_0_1_1_n_n.rhsIdx i q 0).val = (q ⟨0, by decide⟩).val :=
  dot_S128x2048_S128x2048_S2048x2048_0_0_1_1_n_n.rhsIdx_val_of_single rfl i q
theorem mulR_rhs1 (i : S2048x2048.Idx) (q : dot_S128x2048_S128x2048_S2048x2048_0_0_1_1_n_n.contr.Idx) : (dot_S128x2048_S128x2048_S2048x2048_0_0_1_1_n_n.rhsIdx i q 1).val = (i 1).val := by
  unfold DotDims.rhsIdx
  rw [dif_neg (show ¬(1 : Fin S128x2048.rank) ∈ dot_S128x2048_S128x2048_S2048x2048_0_0_1_1_n_n.rhsBatch by decide), dif_pos (show (1 : Fin S128x2048.rank) ∈ dot_S128x2048_S128x2048_S2048x2048_0_0_1_1_n_n.rhsNonContracting by decide)]
  rfl

/-- A tile times a transposed 2048 × 2048 matrix, into zero: at (r, o) the sum over k of a(r, k) · b(o, k). -/
theorem mulTransposed_apply {φ₁ φ₂ : FTy} (a : FVec Ideal S128x2048 φ₁) (b : FVec Ideal S2048x2048 φ₂) (r : Fin 128) (o : Fin 2048) :
    matmul dot_S128x2048_S2048x2048_S128x2048_1_1_0_0_n_n none a b (constant S128x2048 .f32 0x00000000#32) (ix2 r o)
      = ∑ k : Fin 2048, a (ix2 r k) * b (ix2 o k) := by
  simp only [matmul]
  rw [Ideal.matmul_constant_zero_apply, ← Equiv.sum_comp (contrEquiv1 dot_S128x2048_S2048x2048_S128x2048_1_1_0_0_n_n 2048 rfl rfl).symm]
  refine Finset.sum_congr rfl fun k _ => ?_
  have hk := contrEquiv1_symm_val dot_S128x2048_S2048x2048_S128x2048_1_1_0_0_n_n 2048 rfl rfl k
  have el : dot_S128x2048_S2048x2048_S128x2048_1_1_0_0_n_n.lhsIdx (ix2 r o) ((contrEquiv1 dot_S128x2048_S2048x2048_S128x2048_1_1_0_0_n_n 2048 rfl rfl).symm k) = ix2 r k := funext fun d => Fin.ext (by
    match d with
    | ⟨0, _⟩ => exact mulT_lhs0 _ _
    | ⟨1, _⟩ => exact (mulT_lhs1 _ _).trans hk)
  have er : dot_S128x2048_S2048x2048_S128x2048_1_1_0_0_n_n.rhsIdx (ix2 r o) ((contrEquiv1 dot_S128x2048_S2048x2048_S128x2048_1_1_0_0_n_n 2048 rfl rfl).symm k) = ix2 o k := funext fun d => Fin.ext (by
    match d with
    | ⟨0, _⟩ => exact mulT_rhs0 _ _
    | ⟨1, _⟩ => exact (mulT_rhs1 _ _).trans hk)
  rw [el, er]

/-- The transpose of one tile times another, into zero: at (o, i) the sum over the rows r of a(r, o) · b(r, i). -/
theorem mulOverRows_apply {φ₁ φ₂ : FTy} (a : FVec Ideal S128x2048 φ₁) (b : FVec Ideal S128x2048 φ₂) (o i : Fin 2048) :
    matmul dot_S128x2048_S128x2048_S2048x2048_0_0_1_1_n_n none a b (constant S2048x2048 .f32 0x00000000#32) (ix2 o i)
      = ∑ r : Fin 128, a (ix2 r o) * b (ix2 r i) := by
  simp only [matmul]
  rw [Ideal.matmul_constant_zero_apply, ← Equiv.sum_comp (contrEquiv1 dot_S128x2048_S128x2048_S2048x2048_0_0_1_1_n_n 128 rfl rfl).symm]
  refine Finset.sum_congr rfl fun k _ => ?_
  have hk := contrEquiv1_symm_val dot_S128x2048_S128x2048_S2048x2048_0_0_1_1_n_n 128 rfl rfl k
  have el : dot_S128x2048_S128x2048_S2048x2048_0_0_1_1_n_n.lhsIdx (ix2 o i) ((contrEquiv1 dot_S128x2048_S128x2048_S2048x2048_0_0_1_1_n_n 128 rfl rfl).symm k) = ix2 k o := funext fun d => Fin.ext (by
    match d with
    | ⟨0, _⟩ => exact (mulR_lhs0 _ _).trans hk
    | ⟨1, _⟩ => exact mulR_lhs1 _ _)
  have er : dot_S128x2048_S128x2048_S2048x2048_0_0_1_1_n_n.rhsIdx (ix2 o i) ((contrEquiv1 dot_S128x2048_S128x2048_S2048x2048_0_0_1_1_n_n 128 rfl rfl).symm k) = ix2 k i := funext fun d => Fin.ext (by
    match d with
    | ⟨0, _⟩ => exact (mulR_rhs0 _ _).trans hk
    | ⟨1, _⟩ => exact mulR_rhs1 _ _)
  rw [el, er]

/-! ## Layout steps of the body -/

section Layout
variable {α : Type}

/-- A row [1, 2048] repeated down 128 rows: entry (r, o) is the row's entry o. -/
theorem bcastRow_apply (v : S1x2048.Idx → α) (h : S1x2048.Broadcasts S128x2048) (r : Fin 128) (o : Fin 2048) :
    broadcastTo S128x2048 v h (ix2 r o) = v (ix2 0 o) :=
  broadcastTo_apply v h (ix2 r o) (ix2 0 o) (fun d => by
    match d with
    | ⟨0, _⟩ => show 0 = if (1 : Nat) = 1 then 0 else r.val; rw [if_pos rfl]
    | ⟨1, _⟩ => show o.val = if (2048 : Nat) = 1 then 0 else o.val; rw [if_neg (by decide)])

/-- [2048] viewed [1, 2048]. -/
theorem castRow_apply (v : S2048.Idx → α) (h : S2048.ShapeCasts S1x2048) (o : Fin 2048) :
    shapeCast S1x2048 v h (ix2 0 o) = v (ix1 o) :=
  shapeCast_apply v h (ix2 0 o) (ix1 o) (by
    rw [Shape.rowMajor_val_one, Shape.rowMajor_val_two]
    show o.val = 0 * 2048 + o.val
    omega)

/-- [1, 2048] viewed [1, 1, 2048]. -/
theorem castRow3_apply (v : S1x2048.Idx → α) (h : S1x2048.ShapeCasts S1x1x2048) (o : Fin 2048) :
    shapeCast S1x1x2048 v h (ix3 0 0 o) = v (ix2 0 o) :=
  shapeCast_apply v h (ix3 0 0 o) (ix2 0 o) (by
    rw [Shape.rowMajor_val_two, Shape.rowMajor_val_three]
    show 0 * 2048 + o.val = (0 * 1 + 0) * 2048 + o.val
    omega)

/-- [1, 1, 2048] viewed [1, 2048]. -/
theorem uncastRow3_apply (v : S1x1x2048.Idx → α) (h : S1x1x2048.ShapeCasts S1x2048) (o : Fin 2048) :
    shapeCast S1x2048 v h (ix2 0 o) = v (ix3 0 0 o) :=
  shapeCast_apply v h (ix2 0 o) (ix3 0 0 o) (by
    rw [Shape.rowMajor_val_two, Shape.rowMajor_val_three]
    show (0 * 1 + 0) * 2048 + o.val = 0 * 2048 + o.val
    omega)

/-- [2048, 2048] viewed [1, 2048, 2048]. -/
theorem castMat3_apply (v : S2048x2048.Idx → α) (h : S2048x2048.ShapeCasts S1x2048x2048) (o i : Fin 2048) :
    shapeCast S1x2048x2048 v h (ix3 0 o i) = v (ix2 o i) :=
  shapeCast_apply v h (ix3 0 o i) (ix2 o i) (by
    rw [Shape.rowMajor_val_two, Shape.rowMajor_val_three]
    show o.val * 2048 + i.val = (0 * 2048 + o.val) * 2048 + i.val
    omega)

/-- [1, 2048, 2048] viewed [2048, 2048]. -/
theorem uncastMat3_apply (v : S1x2048x2048.Idx → α) (h : S1x2048x2048.ShapeCasts S2048x2048) (o i : Fin 2048) :
    shapeCast S2048x2048 v h (ix2 o i) = v (ix3 0 o i) :=
  shapeCast_apply v h (ix2 o i) (ix3 0 o i) (by
    rw [Shape.rowMajor_val_two, Shape.rowMajor_val_three]
    show (0 * 2048 + o.val) * 2048 + i.val = o.val * 2048 + i.val
    omega)

end Layout

/-! ## The payloads -/

/-- The left factor of the products is the tile itself: rounding to the narrower format is the identity here. -/
theorem tile_apply (x : Vec Ideal S128x2048 .f32) (j : S128x2048.Idx) : k0_pay5 (F := Ideal) x j = x j := rfl

/-- The logits of the tile: three products over the input coordinate and the bias row. -/
theorem logits_apply (x : Vec Ideal S128x2048 .f32) (wh wl : Vec Ideal S2048x2048 .bf16) (b : Vec Ideal S1x2048 .f32)
    (r : Fin 128) (o : Fin 2048) :
    k0_pay6 (F := Ideal) x wh wl b (ix2 r o)
      = (((∑ k : Fin 2048, x (ix2 r k) * wh (ix2 o k)) + (∑ k : Fin 2048, x (ix2 r k) * wl (ix2 o k)))
          + (∑ k : Fin 2048, (x (ix2 r k) - x (ix2 r k)) * wh (ix2 o k))) + b (ix2 0 o) := by
  unfold k0_pay6 k0_pay5
  (try dsimp only)
  rw [shapeCast_self, shapeCast_self, shapeCast_self]
  show ((_ + _) + _) + _ = _
  rw [mulTransposed_apply, mulTransposed_apply, mulTransposed_apply, bcastRow_apply]
  rfl

/-- −∞ and one, as the body's patterns denote them (never evaluated: the reference spells the same words). -/
abbrev negInf : EReal := Ideal.ofBits .f32 0xFF800000#32
abbrev one : EReal := Ideal.ofBits .f32 0x3F800000#32

/-- The body's softmax chain over the rows of ANY 128 × 2048 matrix `s`: maximum along the row from −∞, once more the maximum
    with −∞ (which changes nothing), subtract, exponentiate, sum along the row, divide. At (r, o) it is the softmax of row r. -/
theorem softmaxChain_apply (s : FVec Ideal S128x2048 .f32) (r : Fin 128) (o : Fin 2048) :
    divf (exp (subf s (broadcastTo S128x2048 (shapeCast S128x1
        (maximumf (broadcast S128 (Scalar.ofBits (F := Ideal) .f32 0xFF800000#32))
          (multiReduction .maximumf [1] S128 s 0xFF800000#32 reduces_S128x2048_S128 (.inl rfl) rfl))
        shapeCasts_S128_S128x1) broadcasts_S128x1_S128x2048)))
      (broadcastTo S128x2048 (shapeCast S128x1
        (multiReduction .add [1] S128
          (exp (subf s (broadcastTo S128x2048 (shapeCast S128x1
            (maximumf (broadcast S128 (Scalar.ofBits (F := Ideal) .f32 0xFF800000#32))
              (multiReduction .maximumf [1] S128 s 0xFF800000#32 reduces_S128x2048_S128 (.inl rfl) rfl))
            shapeCasts_S128_S128x1) broadcasts_S128x1_S128x2048)))
          0x00000000#32 reduces_S128x2048_S128 (.inl rfl) rfl)
        shapeCasts_S128_S128x1) broadcasts_S128x1_S128x2048) (ix2 r o)
      = SoftmaxRows.softmaxAt (fun c => s (ix2 r c)) negInf o := by
  have hmx : maximumf (broadcast S128 (Scalar.ofBits (F := Ideal) .f32 0xFF800000#32))
          (multiReduction .maximumf [1] S128 s 0xFF800000#32 reduces_S128x2048_S128 (.inl rfl) rfl)
        = multiReduction .maximumf [1] S128 s 0xFF800000#32 reduces_S128x2048_S128 (.inl rfl) rfl :=
    funext fun j => by
      obtain ⟨a, rfl⟩ : ∃ a : Fin 128, j = ix1 a := ⟨j 0, eq_ix1 j⟩
      have e := SoftmaxRows.rowMax2_apply s 0xFF800000#32 reduces_S128x2048_S128 (.inl rfl) rfl a
      exact (congrArg (max negInf) e).trans ((SoftmaxRows.max_fold_max_self _ _ _).trans e.symm)
  rw [hmx]
  exact SoftmaxRows.softmaxRows_apply s 0xFF800000#32 0x00000000#32 reduces_S128x2048_S128 shapeCasts_S128_S128x1
    broadcasts_S128x1_S128x2048 (.inl rfl) rfl rfl r o

/-- The softmax of the tile at (r, o): the softmax of row r of the logits over one, the row's maximum folded from −∞. -/
theorem softmax_apply (x : Vec Ideal S128x2048 .f32) (wh wl : Vec Ideal S2048x2048 .bf16) (b : Vec Ideal S1x2048 .f32)
    (r : Fin 128) (o : Fin 2048) :
    k0_pay7 (F := Ideal) x wh wl b (ix2 r o)
      = SoftmaxRows.softmaxAt (fun c => Ideal.div (k0_pay6 (F := Ideal) x wh wl b (ix2 r c)) one) negInf o := by
  unfold k0_pay7
  exact softmaxChain_apply (divf (k0_pay6 (F := Ideal) x wh wl b) (broadcast S128x2048 (Scalar.ofBits (F := Ideal) .f32 0x3F800000#32))) r o

/-- Softmax times logits, entry by entry. -/
theorem weighted_apply (x : Vec Ideal S128x2048 .f32) (wh wl : Vec Ideal S2048x2048 .bf16) (b : Vec Ideal S1x2048 .f32)
    (j : S128x2048.Idx) :
    k0_pay9 (F := Ideal) x wh wl b j = k0_pay7 (F := Ideal) x wh wl b j * k0_pay6 (F := Ideal) x wh wl b j := rfl

/-- The row accumulator read back as a row. -/
theorem rowOld_apply (old : Vec Ideal S1x1x2048 .f32) (o : Fin 2048) : k0_pay8 (F := Ideal) old (ix2 0 o) = old (ix3 0 0 o) := by
  unfold k0_pay8
  exact uncastRow3_apply _ _ o

/-- The row accumulator's new value at o: the old one plus the sum over the tile's rows. -/
theorem rowAcc_apply (old : FVec Ideal S1x2048 .f32) (v : FVec Ideal S128x2048 .f32) (o : Fin 2048) :
    k0_pay1 (F := Ideal) old v (ix3 0 0 o) = old (ix2 0 o) + ∑ r : Fin 128, v (ix2 r o) := by
  unfold k0_pay1
  (try dsimp only)
  rw [castRow3_apply]
  show old (ix2 0 o) + _ = _
  rw [castRow_apply]
  exact congrArg (old (ix2 0 o) + ·) (ColumnSum.colSum2_apply v _ reduces_S128x2048_S2048 _ _ o)

/-- The matrix accumulator's new value at (o, i): the old one plus the sum over the tile's rows of y(r, o) · x(r, i). -/
theorem matAcc_apply (x : FVec Ideal S128x2048 .bf16) (y : FVec Ideal S128x2048 .f32) (old : Vec Ideal S1x2048x2048 .f32)
    (o i : Fin 2048) :
    k0_pay2 (F := Ideal) x y old (ix3 0 o i) = old (ix3 0 o i) + ∑ r : Fin 128, y (ix2 r o) * x (ix2 r i) := by
  unfold k0_pay2
  (try dsimp only)
  rw [castMat3_apply]
  show _ + _ = _
  rw [uncastMat3_apply, mulOverRows_apply]
  rfl

/-- The reset values are zero everywhere. -/
theorem zeroMat_apply (j : S1x2048x2048.Idx) : k0_pay3 (F := Ideal) j = 0 := by
  unfold k0_pay3
  (try dsimp only)
  unfold shapeCast
  exact Ideal.ofBits_zero_f32
theorem zeroRow_apply (j : S1x1x2048.Idx) : k0_pay4 (F := Ideal) j = 0 := by
  unfold k0_pay4
  (try dsimp only)
  unfold shapeCast
  exact Ideal.ofBits_zero_f32

end Cert.KernelIdeal.Payloads

end
-- ==== Proof.Blocks.lean ====
/-
  What the kernel body is handed at grid point `t`, in terms of the three argument arrays (at the ideal values).

  The grid has 32 points; point `t` is batch tile `t`. Its first operand's block is rows 128 t … 128 t + 127 of the batch
  (`tile_block`). The other three operands are whole arrays the host computed before the launch, the same at every point:
  the weight rounded to the narrower format — at the ideal values the weight itself (`whi_block`); the rounded remainder
  `W − widen(narrow W)` — entry by entry `W − W` (`wlo_block`); and the bias viewed as one row (`bias_block`).
-/
import proofs.«159458_j55697135895031_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-! ## The printed index maps, decided over the grid -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
/-- The two accumulators' blocks: half `t / 16` of their arrays. -/
theorem idx4 : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)
theorem idx5 : ∀ t : Fin cfg0.N, win0_5.index t 0 = t.val / 16 ∧ win0_5.index t 1 = 0 ∧ win0_5.index t 2 = 0 :=
  (by decide +kernel : ∀ t : Fin grid0.N, win0_5.index t 0 = t.val / 16 ∧ win0_5.index t 1 = 0 ∧ win0_5.index t 2 = 0)

/-! ## The arrays the host wrote before the launch -/

theorem V_whi (c : Dev nD) : (V m c main_v0 : S2048x2048.Idx → EReal) = m ((c : Thread nD τ).loc main_arg1) := by
  show StableHlo.after hostOps0 (fun b => m (c, b)) (Proc.devRef .tc main_v0) = _
  after_results
  rfl

/-- The weight as launched, on core `c`, as an array of extended reals. -/
abbrev argW (c : Dev nD) : S2048x2048.Idx → EReal := m ((c : Thread nD τ).loc main_arg1)

theorem V_wlo (c : Dev nD) : (V m c main_v3 : S2048x2048.Idx → EReal) = fun j => argW m c j - argW m c j := by
  show StableHlo.after hostOps0 (fun b => m (c, b)) (Proc.devRef .tc main_v3) = _
  after_results
  rfl

theorem V_bias (c : Dev nD) : (V m c main_v4 : S1x2048.Idx → EReal)
    = shapeCast S1x2048 (m ((c : Thread nD τ).loc main_arg2)) shapeCasts_S2048_S1x2048 := by
  show StableHlo.after hostOps0 (fun b => m (c, b)) (Proc.devRef .tc main_v4) = _
  after_results
  rfl

/-! ## The blocks -/

/-- Row `r` of tile `t` is row `128 t + r` of the batch. -/
theorem tile_block (c : Dev nD) (t : Fin cfg0.N) (r : Fin 128) (k : Fin 2048) (b : Fin 4096) (hb : b.val = r.val + 128 * t.val) :
    (iblk m c 0 t : Vec Ideal S128x2048 .f32) (ix2 r k) = m ((c : Thread nD τ).loc main_arg0) (ix2 b k) := by
  unfold iblk
  rw [View.read_apply]
  show V m c main_arg0 _ = _
  rw [V_main_arg0]
  refine congrArg _ (funext fun a => Fin.ext ?_)
  match a with
  | ⟨0, _⟩ => show win0_0.index t 0 * 128 + 1 * r.val = b.val; rw [(idx0 t).1]; omega
  | ⟨1, _⟩ => show win0_0.index t 1 * 2048 + 1 * k.val = k.val; rw [(idx0 t).2]; omega

theorem whi_block (c : Dev nD) (t : Fin cfg0.N) (o k : Fin 2048) :
    (iblk m c 1 t : Vec Ideal S2048x2048 .bf16) (ix2 o k) = m ((c : Thread nD τ).loc main_arg1) (ix2 o k) := by
  unfold iblk
  rw [View.read_apply]
  show (V m c main_v0 : S2048x2048.Idx → EReal) _ = _
  refine (congrFun (V_whi m c) _).trans (congrArg _ (funext fun a => Fin.ext ?_))
  match a with
  | ⟨0, _⟩ => show win0_1.index t 0 * 2048 + 1 * o.val = o.val; rw [(idx1 t).1]; omega
  | ⟨1, _⟩ => show win0_1.index t 1 * 2048 + 1 * k.val = k.val; rw [(idx1 t).2]; omega

theorem wlo_block (c : Dev nD) (t : Fin cfg0.N) (o k : Fin 2048) :
    (iblk m c 2 t : Vec Ideal S2048x2048 .bf16) (ix2 o k) = argW m c (ix2 o k) - argW m c (ix2 o k) := by
  unfold iblk
  rw [View.read_apply]
  show (V m c main_v3 : S2048x2048.Idx → EReal) _ = _
  have e : (((cfg0.win 2).blk t).view.emb (ix2 o k) : S2048x2048.Idx) = ix2 o k := funext fun a => Fin.ext (by
    match a with
    | ⟨0, _⟩ => show win0_2.index t 0 * 2048 + 1 * o.val = o.val; rw [(idx2 t).1]; omega
    | ⟨1, _⟩ => show win0_2.index t 1 * 2048 + 1 * k.val = k.val; rw [(idx2 t).2]; omega)
  rw [e]
  exact congrFun (V_wlo m c) _

theorem bias_block (c : Dev nD) (t : Fin cfg0.N) (o : Fin 2048) :
    (iblk m c 3 t : Vec Ideal S1x2048 .f32) (ix2 0 o) = m ((c : Thread nD τ).loc main_arg2) (ix1 o) := by
  unfold iblk
  rw [View.read_apply]
  show (V m c main_v4 : S1x2048.Idx → EReal) _ = _
  have e : (((cfg0.win 3).blk t).view.emb (ix2 0 o) : S1x2048.Idx) = ix2 0 o := funext fun a => Fin.ext (by
    match a with
    | ⟨0, _⟩ => show win0_3.index t 0 * 1 + 1 * 0 = 0; rw [(idx3 t).1]
    | ⟨1, _⟩ => show win0_3.index t 1 * 2048 + 1 * o.val = o.val; rw [(idx3 t).2]; omega)
  rw [e]
  refine (congrFun (V_bias m c) _).trans ?_
  exact shapeCast_apply _ _ (ix2 0 o) (ix1 o) (by
    rw [Shape.rowMajor_val_one, Shape.rowMajor_val_two]
    show o.val = 0 * 2048 + o.val
    omega)

end Cert.KernelIdeal.Blocks

end
-- ==== Proof.HebbSpec.lean ====
/-
  The Hebbian step as ONE function of the three argument arrays, index by index, on the extended reals.

  With `x` the batch (4096 × 2048), `W` the weight (2048 × 2048) and `bias` (2048):

    logit(b, o) = ∑ₖ x(b, k) · W(o, k) + bias(o)
    soft(b, o)  = the softmax over o of logit(b, ·) / 1, the row's maximum folded from −∞
    rowNorm(o)  = √(0 + ∑ₖ W(o, k)²)
    dev(o)      = |1 − rowNorm(o)|

  and, for a rate factor `ρ`, sums `yx`, `yu` and a weight entry `w`,

    stepAt ρ yx yu w = (rate · ρ) · ((yx − yu · w) · 1/4096).

  Both programs compute `stepAt ρ (∑_b soft(b, o) · x(b, i)) (∑_b soft(b, o) · logit(b, o)) W(o, i)` at (o, i): one with
  ρ = √dev(o), the other with ρ = dev(o)^(1/2). The float constants are kept as the patterns both programs spell
  (never evaluated, except zero and one half).
-/
import Idealize.ShloMosaic.PureOps.Ideal.Laws
import Idealize.ShloMosaic.Lib.ValueIdx
import proofs.«159458_j55697135895031_2_alg».proof.Proof.LibSoftmaxRows
import proofs.«159458_j55697135895031_2_alg».proof.Proof.HebbAlgebra

noncomputable section

open scoped BigOperators

namespace Hebb

open Idealize.ShloMosaic Idealize.ShloMosaic.ValueIdx

/-- The argument arrays' shapes. -/
abbrev SX : Shape := ⟨2, ![4096, 2048]⟩
abbrev SW : Shape := ⟨2, ![2048, 2048]⟩
abbrev SB : Shape := ⟨1, ![2048]⟩

/-- The float constants the two programs spell, as their patterns denote them. -/
abbrev zero : EReal := Ideal.ofBits .f32 0x00000000#32
abbrev one : EReal := Ideal.ofBits .f32 0x3F800000#32
abbrev negInf : EReal := Ideal.ofBits .f32 0xFF800000#32
abbrev half : EReal := Ideal.ofBits .f32 0x3F000000#32
abbrev invBatch : EReal := Ideal.ofBits .f32 0x39800000#32
abbrev rate : EReal := Ideal.ofBits .f32 0x3C23D70A#32

variable (x : SX.Idx → EReal) (W : SW.Idx → EReal) (bias : SB.Idx → EReal)

/-- The logit of batch row `b` at output `o`. -/
def logit (b : Fin 4096) (o : Fin 2048) : EReal := (∑ k : Fin 2048, x (ix2 b k) * W (ix2 o k)) + bias (ix1 o)

/-- The softmax of batch row `b` at output `o` (the logits divided by the temperature one). -/
def soft (b : Fin 4096) (o : Fin 2048) : EReal :=
  SoftmaxRows.softmaxAt (fun c => Ideal.div (logit x W bias b c) one) negInf o

/-- The Euclidean norm of row `o` of the weight, as a sum from the host's initial zero. -/
def rowNorm (o : Fin 2048) : EReal := Ideal.sqrt (zero + ∑ k : Fin 2048, W (ix2 o k) * W (ix2 o k))

/-- `|1 − rowNorm(o)|`, the absolute value spelled as the maximum with the negation. -/
def dev (o : Fin 2048) : EReal := max (one - rowNorm W o) (-(one - rowNorm W o))

/-- The step at one entry from its four ingredients. -/
def stepAt (ρ yx yu w : EReal) : EReal := (rate * ρ) * ((yx - yu * w) * invBatch)

theorem logit_def (b : Fin 4096) (o : Fin 2048) :
    logit x W bias b o = (∑ k : Fin 2048, x (ix2 b k) * W (ix2 o k)) + bias (ix1 o) := rfl
theorem soft_def (b : Fin 4096) (o : Fin 2048) :
    soft x W bias b o = SoftmaxRows.softmaxAt (fun c => Ideal.div (logit x W bias b c) one) negInf o := rfl
theorem rowNorm_def (o : Fin 2048) : rowNorm W o = Ideal.sqrt (zero + ∑ k : Fin 2048, W (ix2 o k) * W (ix2 o k)) := rfl
theorem dev_def (o : Fin 2048) : dev W o = max (one - rowNorm W o) (-(one - rowNorm W o)) := rfl
theorem stepAt_def (ρ yx yu w : EReal) : stepAt ρ yx yu w = (rate * ρ) * ((yx - yu * w) * invBatch) := rfl

/-- The two rate factors agree: the square root of an absolute value is its power one half. -/
theorem rateFactor_eq (o : Fin 2048) : Ideal.pow (dev W o) half = Ideal.sqrt (dev W o) :=
  pow_half_abs _

end Hebb

end
-- ==== Proof.Accum.lean ====
/-
  The two accumulators after each grid point, as sums over batch tiles (at the ideal values, for finite inputs).

  At grid point `t` the body sees tile `t` of the batch, the weight, its (vanishing) remainder and the bias. For finite
  inputs the remainder `W − W` is zero and so is the tile's own remainder `x − x`; a product with a zero matrix is zero,
  so the three-product logits collapse to `x Wᵀ + bias` — the specification's `logit` of the tile's rows (`logit_tile`),
  and the body's softmax is the specification's `soft` (`soft_tile`). One point then adds to the matrix accumulator
  `∑_r soft(r, o) · x(r, i)` over the tile's rows (`yxPart`) and to the row accumulator `∑_r soft(r, o) · logit(r, o)`
  (`yuPart`). By induction on the point, after point `n` each accumulator holds the sum of these contributions over
  the tiles of `n`'s half of the grid up to `n` (`acc_eq`): the reset at tiles 0 and 16 stores zero, and `0 + a = a`.
-/
import proofs.«159458_j55697135895031_2_alg».proof.Proof.Pieces
import proofs.«159458_j55697135895031_2_alg».proof.Proof.Payloads
import proofs.«159458_j55697135895031_2_alg».proof.Proof.Blocks
import proofs.«159458_j55697135895031_2_alg».proof.Proof.HebbSpec

noncomputable section

open scoped BigOperators

namespace Hebb

open Idealize.ShloMosaic Idealize.ShloMosaic.ValueIdx

variable (x : SX.Idx → EReal) (W : SW.Idx → EReal) (bias : SB.Idx → EReal)

/-- Tile `t`'s contribution to the matrix accumulator at (o, i). -/
def yxPart (t : Fin 32) (o i : Fin 2048) : EReal :=
  ∑ r : Fin 128, soft x W bias (rowOf t r) o * x (ix2 (rowOf t r) i)

/-- Tile `t`'s contribution to the row accumulator at o. -/
def yuPart (t : Fin 32) (o : Fin 2048) : EReal :=
  ∑ r : Fin 128, soft x W bias (rowOf t r) o * logit x W bias (rowOf t r) o

theorem yxPart_def (t : Fin 32) (o i : Fin 2048) :
    yxPart x W bias t o i = ∑ r : Fin 128, soft x W bias (rowOf t r) o * x (ix2 (rowOf t r) i) := rfl
theorem yuPart_def (t : Fin 32) (o : Fin 2048) :
    yuPart x W bias t o = ∑ r : Fin 128, soft x W bias (rowOf t r) o * logit x W bias (rowOf t r) o := rfl

end Hebb

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen

variable (m : (ℓ : Loc nD τ sig) → Buf (Elt Ideal) ℓ)

/-- The three argument arrays as launched, on core `c`. -/
abbrev aX (c : Dev nD) : Hebb.SX.Idx → EReal := m ((c : Thread nD τ).loc main_arg0)
abbrev aW (c : Dev nD) : Hebb.SW.Idx → EReal := m ((c : Thread nD τ).loc main_arg1)
abbrev aB (c : Dev nD) : Hebb.SB.Idx → EReal := m ((c : Thread nD τ).loc main_arg2)

/-- What the proof uses of the precondition: the batch's and the weight's entries are real numbers. -/
def Finite (c : Dev nD) : Prop :=
  (∀ j, ∃ r : ℝ, aX m c j = (r : EReal)) ∧ (∀ j, ∃ r : ℝ, aW m c j = (r : EReal))

/-- Grid point `t` as a tile number. -/
abbrev tileOf (t : Fin cfg0.N) : Fin 32 := ⟨t.val, lt_of_lt_of_eq t.isLt N_0⟩

/-! ## One tile, over any vectors with the stated entries -/

/-- With a vanishing low-order weight and a vanishing low-order tile, the three-product logits are one product plus the bias. -/
theorem logits_collapse (x0 : Vec Ideal S128x2048 .f32) (x1 x2 : Vec Ideal S2048x2048 .bf16) (x3 : Vec Ideal S1x2048 .f32)
    (X Wt : Fin 2048 → EReal) (bv : EReal) (r : Fin 128) (o : Fin 2048)
    (h0 : ∀ k, x0 (ix2 r k) = X k) (h1 : ∀ k, x1 (ix2 o k) = Wt k) (h2 : ∀ k, x2 (ix2 o k) = 0) (h3 : x3 (ix2 0 o) = bv)
    (hX : ∀ k, X k - X k = 0) :
    k0_pay6 (F := Ideal) x0 x1 x2 x3 (ix2 r o) = (∑ k : Fin 2048, X k * Wt k) + bv := by
  rw [Payloads.logits_apply]
  have e1 : ∑ k : Fin 2048, x0 (ix2 r k) * x1 (ix2 o k) = ∑ k : Fin 2048, X k * Wt k :=
    Finset.sum_congr rfl fun k _ => by rw [h0 k, h1 k]
  have e2 : ∑ k : Fin 2048, x0 (ix2 r k) * x2 (ix2 o k) = 0 :=
    Finset.sum_eq_zero fun k _ => by rw [h2 k, mul_zero]
  have e3 : ∑ k : Fin 2048, (x0 (ix2 r k) - x0 (ix2 r k)) * x1 (ix2 o k) = 0 :=
    Finset.sum_eq_zero fun k _ => by rw [h0 k, hX k, zero_mul]
  rw [e1, e2, e3, add_zero, add_zero, h3]

/-- The softmax of a row whose logits are known. -/
theorem soft_collapse (x0 : Vec Ideal S128x2048 .f32) (x1 x2 : Vec Ideal S2048x2048 .bf16) (x3 : Vec Ideal S1x2048 .f32)
    (r : Fin 128) (o : Fin 2048) (L : Fin 2048 → EReal) (hl : ∀ c', k0_pay6 (F := Ideal) x0 x1 x2 x3 (ix2 r c') = L c') :
    k0_pay7 (F := Ideal) x0 x1 x2 x3 (ix2 r o) = SoftmaxRows.softmaxAt (fun c' => Ideal.div (L c') Hebb.one) Hebb.negInf o := by
  rw [Payloads.softmax_apply]
  exact congrArg (fun row => SoftmaxRows.softmaxAt row Hebb.negInf o) (funext fun c' => by rw [hl c'])

/-- The matrix accumulator's gain from known softmax and tile entries. -/
theorem mat_collapse (x0 : Vec Ideal S128x2048 .f32) (y : FVec Ideal S128x2048 .f32) (old : Vec Ideal S1x2048x2048 .f32)
    (o i : Fin 2048) (S Xc : Fin 128 → EReal) (hy : ∀ r, y (ix2 r o) = S r) (hx : ∀ r, x0 (ix2 r i) = Xc r) :
    k0_pay2 (F := Ideal) (k0_pay5 x0) y old (ix3 0 o i) = old (ix3 0 o i) + ∑ r : Fin 128, S r * Xc r := by
  rw [Payloads.matAcc_apply]
  exact congrArg (old (ix3 0 o i) + ·) (Finset.sum_congr rfl fun r _ => by rw [hy r, Payloads.tile_apply, hx r])

/-- The row accumulator's gain from known softmax and logit entries. -/
theorem row_collapse (x0 : Vec Ideal S128x2048 .f32) (x1 x2 : Vec Ideal S2048x2048 .bf16) (x3 : Vec Ideal S1x2048 .f32)
    (old : Vec Ideal S1x1x2048 .f32) (o : Fin 2048) (S L : Fin 128 → EReal)
    (hs : ∀ r, k0_pay7 (F := Ideal) x0 x1 x2 x3 (ix2 r o) = S r) (hl : ∀ r, k0_pay6 (F := Ideal) x0 x1 x2 x3 (ix2 r o) = L r) :
    k0_pay1 (F := Ideal) (k0_pay8 old) (k0_pay9 x0 x1 x2 x3) (ix3 0 0 o) = old (ix3 0 0 o) + ∑ r : Fin 128, S r * L r := by
  rw [Payloads.rowAcc_apply, Payloads.rowOld_apply]
  exact congrArg (old (ix3 0 0 o) + ·) (Finset.sum_congr rfl fun r _ => by rw [Payloads.weighted_apply, hs r, hl r])

/-! ## One tile, at the blocks of grid point `t` -/

/-- The body's logits at row r of point t are the specification's logits of batch row 128 t + r. -/
theorem logit_tile (c : Dev nD) (hf : Finite m c) (t : Fin cfg0.N) (r : Fin 128) (o : Fin 2048) :
    k0_pay6 (F := Ideal) (iblk m c 0 t) (iblk m c 1 t) (iblk m c 2 t) (iblk m c 3 t) (ix2 r o)
      = Hebb.logit (aX m c) (aW m c) (aB m c) (Hebb.rowOf (tileOf t) r) o :=
  (logits_collapse (iblk m c 0 t) (iblk m c 1 t) (iblk m c 2 t) (iblk m c 3 t)
    (fun k => aX m c (ix2 (Hebb.rowOf (tileOf t) r) k)) (fun k => aW m c (ix2 o k)) (aB m c (ix1 o)) r o
    (fun k => Blocks.tile_block m c t r k _ rfl) (fun k => Blocks.whi_block m c t o k)
    (fun k => (Blocks.wlo_block m c t o k).trans (by
      obtain ⟨w, hw⟩ := hf.2 (ix2 o k)
      show aW m c (ix2 o k) - aW m c (ix2 o k) = 0
      rw [hw]
      exact Hebb.sub_self_of_real w))
    (Blocks.bias_block m c t o)
    (fun k => by
      obtain ⟨v, hv⟩ := hf.1 (ix2 (Hebb.rowOf (tileOf t) r) k)
      show aX m c (ix2 (Hebb.rowOf (tileOf t) r) k) - aX m c (ix2 (Hebb.rowOf (tileOf t) r) k) = 0
      rw [hv]
      exact Hebb.sub_self_of_real v)).trans (Hebb.logit_def _ _ _ _ _).symm

/-- The body's softmax at row r of point t is the specification's softmax of batch row 128 t + r. -/
theorem soft_tile (c : Dev nD) (hf : Finite m c) (t : Fin cfg0.N) (r : Fin 128) (o : Fin 2048) :
    k0_pay7 (F := Ideal) (iblk m c 0 t) (iblk m c 1 t) (iblk m c 2 t) (iblk m c 3 t) (ix2 r o)
      = Hebb.soft (aX m c) (aW m c) (aB m c) (Hebb.rowOf (tileOf t) r) o :=
  (soft_collapse (iblk m c 0 t) (iblk m c 1 t) (iblk m c 2 t) (iblk m c 3 t) r o
    (fun c' => Hebb.logit (aX m c) (aW m c) (aB m c) (Hebb.rowOf (tileOf t) r) c')
    (fun c' => logit_tile m c hf t r c')).trans (Hebb.soft_def _ _ _ _ _).symm

/-- One point adds its tile's contribution to the matrix accumulator, -/
theorem mat_tile (c : Dev nD) (hf : Finite m c) (t : Fin cfg0.N) (old : Vec Ideal S1x2048x2048 .f32) (o i : Fin 2048) :
    k0_pay2 (F := Ideal) (k0_pay5 (iblk m c 0 t)) (k0_pay7 (iblk m c 0 t) (iblk m c 1 t) (iblk m c 2 t) (iblk m c 3 t)) old (ix3 0 o i)
      = old (ix3 0 o i) + Hebb.yxPart (aX m c) (aW m c) (aB m c) (tileOf t) o i :=
  (mat_collapse (iblk m c 0 t) (k0_pay7 (iblk m c 0 t) (iblk m c 1 t) (iblk m c 2 t) (iblk m c 3 t)) old o i
    (fun r => Hebb.soft (aX m c) (aW m c) (aB m c) (Hebb.rowOf (tileOf t) r) o)
    (fun r => aX m c (ix2 (Hebb.rowOf (tileOf t) r) i))
    (fun r => soft_tile m c hf t r o) (fun r => Blocks.tile_block m c t r i _ rfl)).trans
    (congrArg (old (ix3 0 o i) + ·) (Hebb.yxPart_def _ _ _ _ _ _).symm)

/-- and to the row accumulator. -/
theorem row_tile (c : Dev nD) (hf : Finite m c) (t : Fin cfg0.N) (old : Vec Ideal S1x1x2048 .f32) (o : Fin 2048) :
    k0_pay1 (F := Ideal) (k0_pay8 old) (k0_pay9 (iblk m c 0 t) (iblk m c 1 t) (iblk m c 2 t) (iblk m c 3 t)) (ix3 0 0 o)
      = old (ix3 0 0 o) + Hebb.yuPart (aX m c) (aW m c) (aB m c) (tileOf t) o :=
  (row_collapse (iblk m c 0 t) (iblk m c 1 t) (iblk m c 2 t) (iblk m c 3 t) old o
    (fun r => Hebb.soft (aX m c) (aW m c) (aB m c) (Hebb.rowOf (tileOf t) r) o)
    (fun r => Hebb.logit (aX m c) (aW m c) (aB m c) (Hebb.rowOf (tileOf t) r) o)
    (fun r => soft_tile m c hf t r o) (fun r => logit_tile m c hf t r o)).trans
    (congrArg (old (ix3 0 0 o) + ·) (Hebb.yuPart_def _ _ _ _ _).symm)

/-- What both accumulators hold after point `n`. -/
def AccAt (c : Dev nD) (n : ℕ) (hn : n < cfg0.N) : Prop :=
  (∀ o i : Fin 2048, (outsAt0 m c n hn).1 (ix3 0 o i) = ∑ t' ∈ Hebb.upTo n, Hebb.yxPart (aX m c) (aW m c) (aB m c) t' o i)
  ∧ (∀ o : Fin 2048, (outsAt0 m c n hn).2 (ix3 0 0 o) = ∑ t' ∈ Hebb.upTo n, Hebb.yuPart (aX m c) (aW m c) (aB m c) t' o)

/-- At the first tile of a half: zero plus the tile's contribution. -/
theorem acc_first (c : Dev nD) (hf : Finite m c) (t : Fin cfg0.N) (h0 : t.val % 16 = 0) : AccAt m c t.val t.isLt := by
  have hN : t.val < 32 := lt_of_lt_of_eq t.isLt N_0
  unfold AccAt
  rw [outsAt0_A m c t h0]
  dsimp only
  constructor
  · intro o i
    rw [Pieces.out_A_4 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) ((hcond0_0 t).mpr h0) (iblk m c 0 t) (iblk m c 1 t) (iblk m c 2 t) (iblk m c 3 t),
      mat_tile m c hf t _ o i, Payloads.zeroMat_apply, zero_add, Hebb.sum_upTo_first _ hN h0]
  · intro o
    rw [Pieces.out_A_5 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) ((hcond0_0 t).mpr h0) (iblk m c 0 t) (iblk m c 1 t) (iblk m c 2 t) (iblk m c 3 t),
      row_tile m c hf t _ o, Payloads.zeroRow_apply, zero_add, Hebb.sum_upTo_first _ hN h0]

/-- At a later tile: what the tile before left plus the tile's contribution. -/
theorem acc_next (c : Dev nD) (hf : Finite m c) (t : Fin cfg0.N) (h0 : ¬t.val % 16 = 0)
    (ih : AccAt m c (t.val - 1) (Nat.lt_of_le_of_lt (Nat.sub_le _ _) t.isLt)) : AccAt m c t.val t.isLt := by
  have hN : t.val < 32 := lt_of_lt_of_eq t.isLt N_0
  unfold AccAt
  rw [outsAt0_B m c t h0]
  dsimp only
  constructor
  · intro o i
    rw [Pieces.out_B_4 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (fun h => h0 ((hcond0_0 t).mp h)) (iblk m c 0 t) (iblk m c 1 t) (iblk m c 2 t) (iblk m c 3 t)
      (outsAt0 m c (t.val - 1) (Nat.lt_of_le_of_lt (Nat.sub_le _ _) t.isLt)).1 (outsAt0 m c (t.val - 1) (Nat.lt_of_le_of_lt (Nat.sub_le _ _) t.isLt)).2,
      mat_tile m c hf t _ o i, ih.1 o i, Hebb.sum_upTo_next _ hN h0]
  · intro o
    rw [Pieces.out_B_5 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (fun h => h0 ((hcond0_0 t).mp h)) (iblk m c 0 t) (iblk m c 1 t) (iblk m c 2 t) (iblk m c 3 t)
      (outsAt0 m c (t.val - 1) (Nat.lt_of_le_of_lt (Nat.sub_le _ _) t.isLt)).1 (outsAt0 m c (t.val - 1) (Nat.lt_of_le_of_lt (Nat.sub_le _ _) t.isLt)).2,
      row_tile m c hf t _ o, ih.2 o, Hebb.sum_upTo_next _ hN h0]

/-- After every point both accumulators hold the sums over their half's tiles so far. -/
theorem acc_eq (c : Dev nD) (hf : Finite m c) : ∀ (n : ℕ) (hn : n < cfg0.N), AccAt m c n hn := by
  intro n
  induction n with
  | zero => intro hn; exact acc_first m c hf ⟨0, hn⟩ rfl
  | succ n ih =>
    intro hn
    by_cases h0 : (n + 1) % 16 = 0
    · exact acc_first m c hf ⟨n + 1, hn⟩ h0
    · exact acc_next m c hf ⟨n + 1, hn⟩ h0 (ih (Nat.lt_of_succ_lt hn))

end Cert.KernelIdeal.Accum

end
-- ==== Proof.Final.lean ====
/-
  The two accumulator arrays after the whole grid has run (at the ideal values, for finite inputs).

  Each array has two halves, one per half of the grid; half `h` is written back once, after point `16 h + 15`, when its
  accumulator holds the sum of the contributions of tiles `16 h … 16 h + 15`. So the matrix array ends at
  `(h, o, i) ↦ ∑ over those tiles of yxPart` (`final_mat`) and the row array at `(h, 0, o) ↦ ∑ over those tiles of yuPart`
  (`final_row`): the two write-backs cover the arrays.
-/
import proofs.«159458_j55697135895031_2_alg».proof.Proof.Accum

noncomputable section

open scoped BigOperators

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Accum

variable (m : (ℓ : Loc nD τ sig) → Buf (Elt Ideal) ℓ)

/-- The matrix array after the run: half `h` holds the sum over tiles 16 h … 16 h + 15. -/
def matArr (c : Dev nD) : S2x2048x2048.Idx → EReal := fun j =>
  ∑ t' ∈ Hebb.upTo (16 * (j 0).val + 15),
    Hebb.yxPart (aX m c) (aW m c) (aB m c) t' ⟨(j 1).val, (j 1).isLt⟩ ⟨(j 2).val, (j 2).isLt⟩

/-- The row array after the run. -/
def rowArr (c : Dev nD) : S2x1x2048.Idx → EReal := fun j =>
  ∑ t' ∈ Hebb.upTo (16 * (j 0).val + 15), Hebb.yuPart (aX m c) (aW m c) (aB m c) t' ⟨(j 2).val, (j 2).isLt⟩

theorem matArr_apply (c : Dev nD) (h : Fin 2) (o i : Fin 2048) :
    matArr m c (ix3 h o i) = ∑ t' ∈ Hebb.upTo (16 * h.val + 15), Hebb.yxPart (aX m c) (aW m c) (aB m c) t' o i := rfl
theorem rowArr_apply (c : Dev nD) (h : Fin 2) (o : Fin 2048) :
    rowArr m c (ix3 h 0 o) = ∑ t' ∈ Hebb.upTo (16 * h.val + 15), Hebb.yuPart (aX m c) (aW m c) (aB m c) t' o := rfl

/-- What the matrix accumulator holds at a point that writes it back, read where the block sits in the array. -/
theorem mat_at (c : Dev nD) (hf : Finite m c) (t : Fin cfg0.N) (h15 : t.val % 16 = 15) (y : S1x2048x2048.Idx) (j : S2x2048x2048.Idx)
    (h0 : (j 0).val = t.val / 16) (h1 : (j 1).val = (y 1).val) (h2 : (j 2).val = (y 2).val) :
    (outsAt0 m c t.val t.isLt).1 y = matArr m c j := by
  obtain ⟨z, o, i, rfl⟩ : ∃ (z : Fin 1) (o i : Fin 2048), y = ix3 z o i := ⟨y 0, y 1, y 2, eq_ix3 y⟩
  obtain rfl : z = 0 := Subsingleton.elim _ _
  rw [(acc_eq m c hf t.val t.isLt).1 o i]
  show _ = ∑ t' ∈ Hebb.upTo (16 * (j 0).val + 15), Hebb.yxPart _ _ _ t' ⟨(j 1).val, (j 1).isLt⟩ ⟨(j 2).val, (j 2).isLt⟩
  have e : 16 * (j 0).val + 15 = t.val := by omega
  have eo : (⟨(j 1).val, (j 1).isLt⟩ : Fin 2048) = o := Fin.ext h1
  have ei : (⟨(j 2).val, (j 2).isLt⟩ : Fin 2048) = i := Fin.ext h2
  rw [e, eo, ei]

theorem row_at (c : Dev nD) (hf : Finite m c) (t : Fin cfg0.N) (h15 : t.val % 16 = 15) (y : S1x1x2048.Idx) (j : S2x1x2048.Idx)
    (h0 : (j 0).val = t.val / 16) (h2 : (j 2).val = (y 2).val) :
    (outsAt0 m c t.val t.isLt).2 y = rowArr m c j := by
  obtain ⟨z, z', o, rfl⟩ : ∃ (z z' : Fin 1) (o : Fin 2048), y = ix3 z z' o := ⟨y 0, y 1, y 2, eq_ix3 y⟩
  obtain rfl : z = 0 := Subsingleton.elim _ _
  obtain rfl : z' = 0 := Subsingleton.elim _ _
  rw [(acc_eq m c hf t.val t.isLt).2 o]
  show _ = ∑ t' ∈ Hebb.upTo (16 * (j 0).val + 15), Hebb.yuPart _ _ _ t' ⟨(j 2).val, (j 2).isLt⟩
  have e : 16 * (j 0).val + 15 = t.val := by omega
  have eo : (⟨(j 2).val, (j 2).isLt⟩ : Fin 2048) = o := Fin.ext h2
  rw [e, eo]

/-- What a writing point writes back is its block of `matArr`. -/
theorem flushed_mat (c : Dev nD) (hf : Finite m c) (t : Fin cfg0.N) (hfl : (cfg0.win 4).flush t = true) :
    (dats m 0 c).flushed 4 t = ((cfg0.win 4).blk t).view.read (Elt Ideal) (matArr m c) := by
  have h15 : t.val % 16 = 15 := (flush0_4 t).mp hfl
  show (cfg0.win 4).cut (grid0.coords t) ((dats m 0 c).after 4 t) = _
  rw [after0_4]
  funext y
  show (outsAt0 m c t.val t.isLt).1 y = matArr m c (((cfg0.win 4).blk t).view.emb y)
  have hy0 : (y 0).val < 1 := (y 0).isLt
  exact mat_at m c hf t h15 y _
    (by show win0_4.index t 0 * 1 + 1 * (y 0).val = t.val / 16; rw [(Blocks.idx4 t).1]; omega)
    (by show win0_4.index t 1 * 2048 + 1 * (y 1).val = (y 1).val; rw [(Blocks.idx4 t).2.1]; omega)
    (by show win0_4.index t 2 * 2048 + 1 * (y 2).val = (y 2).val; rw [(Blocks.idx4 t).2.2]; omega)

theorem flushed_row (c : Dev nD) (hf : Finite m c) (t : Fin cfg0.N) (hfl : (cfg0.win 5).flush t = true) :
    (dats m 0 c).flushed 5 t = ((cfg0.win 5).blk t).view.read (Elt Ideal) (rowArr m c) := by
  have h15 : t.val % 16 = 15 := (flush0_5 t).mp hfl
  show (cfg0.win 5).cut (grid0.coords t) ((dats m 0 c).after 5 t) = _
  rw [after0_5]
  funext y
  show (outsAt0 m c t.val t.isLt).2 y = rowArr m c (((cfg0.win 5).blk t).view.emb y)
  have hy0 : (y 0).val < 1 := (y 0).isLt
  exact row_at m c hf t h15 y _
    (by show win0_5.index t 0 * 1 + 1 * (y 0).val = t.val / 16; rw [(Blocks.idx5 t).1]; omega)
    (by show win0_5.index t 2 * 2048 + 1 * (y 2).val = (y 2).val; rw [(Blocks.idx5 t).2.2]; omega)

/-- An index of the matrix array is in point `t`'s block iff each coordinate is in the block's range. -/
theorem mem_blk_mat (t : Fin cfg0.N) (i : S2x2048x2048.Idx) :
    i ∈ ((cfg0.win 4).blk t).view.set ↔ ∀ a : Fin 3, win0_4.index t a * S1x2048x2048.size a ≤ (i a).val
      ∧ (i a).val < win0_4.index t a * S1x2048x2048.size a + S1x2048x2048.size a := by
  show i ∈ ((View.whole main_v5_0).slice (win0_4.rect t)).set ↔ _
  rw [View.set_slice_whole, Rect.mem_set_unit]
  exact Iff.rfl

theorem mem_blk_row (t : Fin cfg0.N) (i : S2x1x2048.Idx) :
    i ∈ ((cfg0.win 5).blk t).view.set ↔ ∀ a : Fin 3, win0_5.index t a * S1x1x2048.size a ≤ (i a).val
      ∧ (i a).val < win0_5.index t a * S1x1x2048.size a + S1x1x2048.size a := by
  show i ∈ ((View.whole main_v5_1).slice (win0_5.rect t)).set ↔ _
  rw [View.set_slice_whole, Rect.mem_set_unit]
  exact Iff.rfl

/-- The point that writes back half `h`. -/
abbrev lastOf (h : ℕ) (hh : h < 2) : Fin cfg0.N := ⟨16 * h + 15, by rw [show cfg0.N = 32 from N_0]; omega⟩

/-- The matrix array after the run. -/
theorem final_mat (c : Dev nD) (hf : Finite m c) : (dats m 0 c).arrAt 4 cfg0.N = matArr m c :=
  (dats m 0 c).arrAt_eq_of_cover 4 (matArr m c) (fun t hfl => flushed_mat m c hf t hfl) fun i => by
    have hi0 : (i 0).val < 2 := (i 0).isLt
    have hi1 : (i 1).val < 2048 := (i 1).isLt
    have hi2 : (i 2).val < 2048 := (i 2).isLt
    refine ⟨lastOf (i 0).val hi0, (flush0_4 _).mpr (by show (16 * (i 0).val + 15) % 16 = 15; omega), ?_⟩
    rw [mem_blk_mat]
    have q := Blocks.idx4 (lastOf (i 0).val hi0)
    have q0 : win0_4.index (lastOf (i 0).val hi0) 0 = (16 * (i 0).val + 15) / 16 := q.1
    intro a
    match a with
    | ⟨0, _⟩ =>
      show win0_4.index (lastOf (i 0).val hi0) 0 * 1 ≤ (i 0).val ∧ (i 0).val < win0_4.index (lastOf (i 0).val hi0) 0 * 1 + 1
      rw [q0]; omega
    | ⟨1, _⟩ =>
      show win0_4.index (lastOf (i 0).val hi0) 1 * 2048 ≤ (i 1).val ∧ (i 1).val < win0_4.index (lastOf (i 0).val hi0) 1 * 2048 + 2048
      rw [q.2.1]; omega
    | ⟨2, _⟩ =>
      show win0_4.index (lastOf (i 0).val hi0) 2 * 2048 ≤ (i 2).val ∧ (i 2).val < win0_4.index (lastOf (i 0).val hi0) 2 * 2048 + 2048
      rw [q.2.2]; omega

/-- The row array after the run. -/
theorem final_row (c : Dev nD) (hf : Finite m c) : (dats m 0 c).arrAt 5 cfg0.N = rowArr m c :=
  (dats m 0 c).arrAt_eq_of_cover 5 (rowArr m c) (fun t hfl => flushed_row m c hf t hfl) fun i => by
    have hi0 : (i 0).val < 2 := (i 0).isLt
    have hi1 : (i 1).val < 1 := (i 1).isLt
    have hi2 : (i 2).val < 2048 := (i 2).isLt
    refine ⟨lastOf (i 0).val hi0, (flush0_5 _).mpr (by show (16 * (i 0).val + 15) % 16 = 15; omega), ?_⟩
    rw [mem_blk_row]
    have q := Blocks.idx5 (lastOf (i 0).val hi0)
    have q0 : win0_5.index (lastOf (i 0).val hi0) 0 = (16 * (i 0).val + 15) / 16 := q.1
    intro a
    match a with
    | ⟨0, _⟩ =>
      show win0_5.index (lastOf (i 0).val hi0) 0 * 1 ≤ (i 0).val ∧ (i 0).val < win0_5.index (lastOf (i 0).val hi0) 0 * 1 + 1
      rw [q0]; omega
    | ⟨1, _⟩ =>
      show win0_5.index (lastOf (i 0).val hi0) 1 * 1 ≤ (i 1).val ∧ (i 1).val < win0_5.index (lastOf (i 0).val hi0) 1 * 1 + 1
      rw [q.2.1]; omega
    | ⟨2, _⟩ =>
      show win0_5.index (lastOf (i 0).val hi0) 2 * 2048 ≤ (i 2).val ∧ (i 2).val < win0_5.index (lastOf (i 0).val hi0) 2 * 2048 + 2048
      rw [q.2.2]; omega

end Cert.KernelIdeal.Final

end
-- ==== Proof.KTail.lean ====
/-
  The host operations after the kernel, as ONE function of the two accumulator arrays and the weight, read at an index.

  The host adds the two halves of each accumulator array, forms `dw = (yx − yu · W) · 1/4096` with `yu` repeated along the
  rows, the row norms of the weight `√(0 + ∑ₖ W(o,k)²)`, the rate `rate · √|1 − norm|` repeated along the rows, and
  multiplies. At (o, i) this is the specification's `stepAt` with rate factor `√dev(o)` (`tailOf_apply`).
-/
import proofs.«159458_j55697135895031_2_alg».proof.Proof.Final

noncomputable section

open scoped BigOperators

open Idealize.ShloMosaic Idealize.ShloMosaic.TcCoe Idealize.SL.Sem Idealize.ShloMosaic.ValueIdx
open Idealize.ShloMosaic.Pipeline (Dat)

namespace Cert.KernelIdeal.KTail

open Cert.KernelIdeal Cert.KernelIdeal.Gen

/-! ## Layout steps of the tail, at an index -/

section Layout
variable {α : Type}

/-- Half `h` of a [2, 2048, 2048] array, as a [1, 2048, 2048] slice. -/
theorem sliceMat_apply (P : S2x2048x2048.Idx → α) (h : Fin 2) (off : Fin 3 → Nat) (hoff : off = ![h.val, 0, 0])
    (hs : S2x2048x2048.Slices off S1x2048x2048) (o i : Fin 2048) :
    extractStridedSlice S1x2048x2048 off P hs (ix3 0 o i) = P (ix3 h o i) := by
  subst hoff
  exact extractStridedSlice_apply _ P hs (ix3 0 o i) (ix3 h o i) (fun a => by
    match a with
    | ⟨0, _⟩ => show h.val = h.val + 0; omega
    | ⟨1, _⟩ => show o.val = 0 + o.val; omega
    | ⟨2, _⟩ => show i.val = 0 + i.val; omega)

/-- Half `h` of a [2, 1, 2048] array. -/
theorem sliceRow_apply (P : S2x1x2048.Idx → α) (h : Fin 2) (off : Fin 3 → Nat) (hoff : off = ![h.val, 0, 0])
    (hs : S2x1x2048.Slices off S1x1x2048) (o : Fin 2048) :
    extractStridedSlice S1x1x2048 off P hs (ix3 0 0 o) = P (ix3 h 0 o) := by
  subst hoff
  exact extractStridedSlice_apply _ P hs (ix3 0 0 o) (ix3 h 0 o) (fun a => by
    match a with
    | ⟨0, _⟩ => show h.val = h.val + 0; omega
    | ⟨1, _⟩ => show 0 = 0 + 0; omega
    | ⟨2, _⟩ => show o.val = 0 + o.val; omega)

/-- [1, 2048] viewed [2048]. -/
theorem uncastRow_apply (v : S1x2048.Idx → α) (h : S1x2048.ShapeCasts S2048) (o : Fin 2048) :
    shapeCast S2048 v h (ix1 o) = v (ix2 0 o) :=
  shapeCast_apply v h (ix1 o) (ix2 0 o) (by
    rw [Shape.rowMajor_val_two, Shape.rowMajor_val_one]
    show 0 * 2048 + o.val = o.val
    omega)

/-- [2048] as a column [2048, 1]. -/
theorem bcastCol_apply (v : S2048.Idx → α) (h : S2048.BroadcastsInDim S2048x1 ![0]) (o : Fin 2048) (z : Fin 1) :
    broadcastInDim S2048x1 ![0] h v (ix2 o z) = v (ix1 o) :=
  broadcastInDim_apply _ h v (ix2 o z) (ix1 o) (fun a => match a with
    | ⟨0, _⟩ => by show o.val = if (2048 : Nat) = 1 then 0 else o.val; rw [if_neg (by decide)])

/-- A column [2048, 1] repeated along each row. -/
theorem bcastAcross_apply (v : S2048x1.Idx → α) (h : S2048x1.BroadcastsInDim S2048x2048 ![0, 1]) (o i : Fin 2048) :
    broadcastInDim S2048x2048 ![0, 1] h v (ix2 o i) = v (ix2 o 0) :=
  broadcastInDim_apply _ h v (ix2 o i) (ix2 o 0) (fun a => match a with
    | ⟨0, _⟩ => by show o.val = if (2048 : Nat) = 1 then 0 else o.val; rw [if_neg (by decide)]
    | ⟨1, _⟩ => by show 0 = if (1 : Nat) = 1 then 0 else i.val; rw [if_pos rfl])

/-- A scalar repeated everywhere. -/
theorem bcastScalar_apply {s : Shape} (v : S_.Idx → α) (h : S_.BroadcastsInDim s ![]) (j : s.Idx) :
    broadcastInDim s ![] h v j = v ix0 :=
  broadcastInDim_apply _ h v j ix0 (fun a => a.elim0)

end Layout

/-- The host's sum over the second axis of a 2048 × 2048 array, at row o: the initial value plus the sum over the row. -/
theorem rowSumHost_apply (v : S2048x2048.Idx → EReal) (init : S_.Idx → EReal) (o : Fin 2048) :
    Host.reduceAdd (F := Ideal) (φ := .f32) v init reducesTo_S2048x2048_S2048_d1 h_S_ (ix1 o)
      = init (Shape.Idx.first h_S_) + ∑ k : Fin 2048, v (ix2 o k) := by
  simp only [Host.reduceAdd, Ideal.hostReduceAdd_def]
  rw [Ideal.hostReduceAdd_single reducesTo_S2048x2048_S2048_d1 (by decide)]
  refine congrArg (_ + ·) (Finset.sum_congr rfl fun k _ => ?_)
  exact congrArg v (funext fun a => Fin.ext (by match a with | ⟨0, _⟩ => rfl | ⟨1, _⟩ => rfl))

/-! ## The tail -/

/-- The sum of the two halves of the matrix array. -/
def yxOf (P4 : S2x2048x2048.Idx → EReal) : S2048x2048.Idx → EReal :=
  addf (F := Ideal) (φ := .f32)
    (shapeCast S2048x2048 (extractStridedSlice S1x2048x2048 ![0, 0, 0] P4 slices_S2x2048x2048_S1x2048x2048_0_0_0) shapeCasts_S1x2048x2048_S2048x2048)
    (shapeCast S2048x2048 (extractStridedSlice S1x2048x2048 ![1, 0, 0] P4 slices_S2x2048x2048_S1x2048x2048_1_0_0) shapeCasts_S1x2048x2048_S2048x2048)

/-- The sum of the two halves of the row array, as a vector. -/
def yuOf (P5 : S2x1x2048.Idx → EReal) : S2048.Idx → EReal :=
  shapeCast S2048 (addf (F := Ideal) (φ := .f32)
    (shapeCast S1x2048 (extractStridedSlice S1x1x2048 ![0, 0, 0] P5 slices_S2x1x2048_S1x1x2048_0_0_0) shapeCasts_S1x1x2048_S1x2048)
    (shapeCast S1x2048 (extractStridedSlice S1x1x2048 ![1, 0, 0] P5 slices_S2x1x2048_S1x1x2048_1_0_0) shapeCasts_S1x1x2048_S1x2048))
    shapeCasts_S1x2048_S2048

/-- `(yx − yu · W) · 1/4096`, with `yu` repeated along the rows. -/
def dwOf (yx : S2048x2048.Idx → EReal) (yu : S2048.Idx → EReal) (W : S2048x2048.Idx → EReal) : S2048x2048.Idx → EReal :=
  mulf (F := Ideal) (φ := .f32)
    (subf (F := Ideal) (φ := .f32) yx
      (mulf (F := Ideal) (φ := .f32)
        (broadcastInDim S2048x2048 ![0, 1] bcast_S2048x1_S2048x2048_0_1 (broadcastInDim S2048x1 ![0] bcast_S2048_S2048x1_0 yu)) W))
    (broadcastInDim S2048x2048 ![] bcast_S_S2048x2048 (constant (F := Ideal) S_ .f32 0x39800000#32))

/-- `rate · √|1 − √(0 + ∑ₖ W(·,k)²)|`, one entry per row of the weight. -/
def rateOf (W : S2048x2048.Idx → EReal) : S2048.Idx → EReal :=
  mulf (F := Ideal) (φ := .f32) (broadcastInDim S2048 ![] bcast_S_S2048 (constant (F := Ideal) S_ .f32 0x3C23D70A#32))
    (Host.sqrt (F := Ideal) (φ := .f32) (Host.absf (F := Ideal) (φ := .f32)
      (subf (F := Ideal) (φ := .f32) (broadcastInDim S2048 ![] bcast_S_S2048 (constant (F := Ideal) S_ .f32 0x3F800000#32))
        (Host.sqrt (F := Ideal) (φ := .f32)
          (Host.reduceAdd (F := Ideal) (φ := .f32) (mulf (F := Ideal) (φ := .f32) W W) (constant (F := Ideal) S_ .f32 0x00000000#32)
            reducesTo_S2048x2048_S2048_d1 h_S_)))))

/-- The whole tail. -/
def tailOf (P4 : S2x2048x2048.Idx → EReal) (P5 : S2x1x2048.Idx → EReal) (W : S2048x2048.Idx → EReal) : S2048x2048.Idx → EReal :=
  mulf (F := Ideal) (φ := .f32)
    (broadcastInDim S2048x2048 ![0, 1] bcast_S2048x1_S2048x2048_0_1 (broadcastInDim S2048x1 ![0] bcast_S2048_S2048x1_0 (rateOf W)))
    (dwOf (yxOf P4) (yuOf P5) W)

theorem yxOf_apply (P4 : S2x2048x2048.Idx → EReal) (o i : Fin 2048) :
    yxOf P4 (ix2 o i) = P4 (ix3 0 o i) + P4 (ix3 1 o i) := by
  unfold yxOf
  show _ + _ = _
  rw [Payloads.uncastMat3_apply, Payloads.uncastMat3_apply]
  exact congrArg₂ (· + ·) (sliceMat_apply P4 0 ![0, 0, 0] rfl _ o i) (sliceMat_apply P4 1 ![1, 0, 0] rfl _ o i)

theorem yuOf_apply (P5 : S2x1x2048.Idx → EReal) (o : Fin 2048) :
    yuOf P5 (ix1 o) = P5 (ix3 0 0 o) + P5 (ix3 1 0 o) := by
  unfold yuOf
  rw [uncastRow_apply]
  show _ + _ = _
  rw [Payloads.uncastRow3_apply, Payloads.uncastRow3_apply]
  exact congrArg₂ (· + ·) (sliceRow_apply P5 0 ![0, 0, 0] rfl _ o) (sliceRow_apply P5 1 ![1, 0, 0] rfl _ o)

theorem dwOf_apply (yx : S2048x2048.Idx → EReal) (yu : S2048.Idx → EReal) (W : S2048x2048.Idx → EReal) (o i : Fin 2048) :
    dwOf yx yu W (ix2 o i) = (yx (ix2 o i) - yu (ix1 o) * W (ix2 o i)) * Hebb.invBatch := by
  unfold dwOf
  show (_ - _ * _) * _ = _
  rw [bcastAcross_apply, bcastCol_apply, bcastScalar_apply]
  rfl

theorem rateOf_apply (W : S2048x2048.Idx → EReal) (o : Fin 2048) :
    rateOf W (ix1 o) = Hebb.rate * Ideal.sqrt (Hebb.dev W o) := by
  unfold rateOf
  show _ * Ideal.sqrt (max (_ - Ideal.sqrt _) (-(_ - Ideal.sqrt _))) = _
  rw [bcastScalar_apply, bcastScalar_apply, rowSumHost_apply, Hebb.dev_def, Hebb.rowNorm_def]
  rfl

/-- The tail at (o, i): the step with rate factor `√dev(o)`, from the two halves' sums. -/
theorem tailOf_apply (P4 : S2x2048x2048.Idx → EReal) (P5 : S2x1x2048.Idx → EReal) (W : S2048x2048.Idx → EReal) (o i : Fin 2048) :
    tailOf P4 P5 W (ix2 o i)
      = Hebb.stepAt (Ideal.sqrt (Hebb.dev W o)) (P4 (ix3 0 o i) + P4 (ix3 1 o i)) (P5 (ix3 0 0 o) + P5 (ix3 1 0 o)) (W (ix2 o i)) := by
  unfold tailOf
  show _ * _ = _
  rw [bcastAcross_apply, bcastCol_apply, rateOf_apply, dwOf_apply, yxOf_apply, yuOf_apply, Hebb.stepAt_def]

end Cert.KernelIdeal.KTail

end
-- ==== Proof.KRun.lean ====
/-
  The idealized kernel's run, read: for finite inputs every weakly fair execution ends with the result array at the
  host tail of the two accumulator arrays' final contents and the weight, and the three arguments unchanged.
-/
import proofs.«159458_j55697135895031_2_alg».proof.Proof.KTail

noncomputable section

open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen Cert.KernelIdeal.Accum

variable (m : (ℓ : Loc nD τ sig) → Buf (Elt Ideal) ℓ) (ρ : Dev nD → PrngReg)

/-- The result array after the run. -/
def result (c : Dev nD) : Buf (Elt Ideal) ((c : Thread nD τ).loc main_v34) :=
  KTail.tailOf (Final.matArr m c) (Final.rowArr m c) (aW m c)

theorem result_def (c : Dev nD) : result m c = KTail.tailOf (Final.matArr m c) (Final.rowArr m c) (aW m c) := rfl

set_option maxRecDepth 8192 in
set_option maxHeartbeats 4000000 in
/-- The host operations after the region, applied to what the region leaves, give `result`. -/
theorem tail_eq (c : Dev nD) (hf : Finite m c) :
    Pipeline.afterTail₀ cfgs (dats m) 0 (V0 m) [hostOps1] c main_v34 = result m c := by
  have e4 : Pipeline.withArrays (cfgs 0).spec c (V0 m c) (fun w => (dats m 0 c).arrAt w (cfgs 0).N) (Proc.devRef .tc main_v5_0)
      = Final.matArr m c :=
    (Pipeline.withArrays_arr spec0 launch0.win.arr_inj c _ _ 4).trans (Final.final_mat m c hf)
  have e5 : Pipeline.withArrays (cfgs 0).spec c (V0 m c) (fun w => (dats m 0 c).arrAt w (cfgs 0).N) (Proc.devRef .tc main_v5_1)
      = Final.rowArr m c :=
    (Pipeline.withArrays_arr spec0 launch0.win.arr_inj c _ _ 5).trans (Final.final_row m c hf)
  have e1 : Pipeline.withArrays (cfgs 0).spec c (V0 m c) (fun w => (dats m 0 c).arrAt w (cfgs 0).N) (Proc.devRef .tc main_arg1)
      = aW m c :=
    (Pipeline.withArrays_of_ne _ c (V0 m c) _ main_arg1 (by exact (by decide : ∀ w, Pipeline.arrRef spec0 w ≠ main_arg1))).trans
      (V_main_arg1 m c)
  unfold Pipeline.afterTail₀
  simp only [List.flatten_cons, List.flatten_nil, List.append_nil]
  after_results
  rw [e4, e5, e1]
  rfl

/-- The run, read. -/
theorem run (hf : ∀ c, Finite m c) :
    θ_run defs (onTc (τ := τ) (main (F := Ideal))) ⟨m, fun _ => 0, ρ⟩ fun r => ∀ c : Dev nD,
      r.2.mem ((c.tc : Thread nD τ).loc main_v34) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v34 (Pipeline.mem_restRefs_of main_v34 (by decide) (by decide))).trans (tail_eq m c (hf c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KRun

end
-- ==== Proof.RefValue.lean ====
/-
  The reference program of the Hebbian step, read at an index on the extended reals.

  The reference computes, from the batch `x` (4096 × 2048), the weight `W` (2048 × 2048) and `bias` (2048):
  the logits `x · Wᵀ + bias`; their softmax along the outputs (divide by one, subtract the row's maximum folded
  from −∞, exponentiate, divide by the row's sum); `yx = softmaxᵀ · x`; `yu` = the column sums of softmax · logits;
  `dw = (yx − yu · W) · 1/4096`; and the result `(rate · |1 − ‖W row‖|^(1/2)) · dw`.

  Each lemma below reads one stage at an index as the matching function of `Hebb`; `ref_apply` chains them.
-/
import proofs.«159458_j55697135895031_2_alg».proof.Proof.Gen.ReferenceIdeal.Read
import proofs.«159458_j55697135895031_2_alg».proof.Proof.HebbSpec
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Cert.ReferenceIdeal.Read Idealize.ShloMosaic Idealize.ShloMosaic.ValueIdx

variable (x : S4096x2048.Idx → EReal) (W : S2048x2048.Idx → EReal) (bias : S2048.Idx → EReal)

/-! ## The logits -/

theorem idx_v0_ix (k o : Fin 2048) : idx_main_v0 (ix2 k o) = ix2 o k :=
  funext fun a => match a with | ⟨0, _⟩ => rfl | ⟨1, _⟩ => rfl

theorem lidx_v1_ix (b : Fin 4096) (o k : Fin 2048) : lidx_main_v1 (ix2 b o) k = ix2 b k :=
  funext fun a => match a with | ⟨0, _⟩ => rfl | ⟨1, _⟩ => rfl

theorem ridx_v1_ix (b : Fin 4096) (o k : Fin 2048) : ridx_main_v1 (ix2 b o) k = ix2 k o :=
  funext fun a => match a with | ⟨0, _⟩ => rfl | ⟨1, _⟩ => rfl

theorem idx_v3_v2_ix (b : Fin 4096) (o : Fin 2048) : idx_main_v2 (idx_main_v3 (ix2 b o)) = ix1 o :=
  funext fun a => match a with | ⟨0, _⟩ => rfl

/-- The transposed weight at (k, o) is the weight at (o, k). -/
theorem wT_ref (k o : Fin 2048) : val_main_v0 (F := Ideal) W (ix2 k o) = W (ix2 o k) :=
  (val_main_v0_apply (F := Ideal) W (ix2 k o)).trans (congrArg W (idx_v0_ix k o))

/-- The bias broadcast over the batch, at (b, o), is the bias at o. -/
theorem biasB_ref (b : Fin 4096) (o : Fin 2048) : val_main_v3 (F := Ideal) bias (ix2 b o) = bias (ix1 o) :=
  (val_main_v3_apply (F := Ideal) bias (ix2 b o)).trans
    ((val_main_v2_apply (F := Ideal) bias (idx_main_v3 (ix2 b o))).trans (congrArg bias (idx_v3_v2_ix b o)))

/-- The contraction x · Wᵀ at (b, o). -/
theorem dot_ref (b : Fin 4096) (o : Fin 2048) :
    val_main_v1 (F := Ideal) x W (ix2 b o) = ∑ k : Fin 2048, x (ix2 b k) * W (ix2 o k) :=
  (val_main_v1_apply x W (ix2 b o)).trans (Finset.sum_congr rfl fun k _ =>
    congrArg₂ (· * ·) (congrArg x (lidx_v1_ix b o k))
      ((congrArg (val_main_v0 (F := Ideal) W) (ridx_v1_ix b o k)).trans (wT_ref W k o)))

/-- The logits at (b, o). -/
theorem logit_ref (b : Fin 4096) (o : Fin 2048) :
    val_main_v4 (F := Ideal) x W bias (ix2 b o) = Hebb.logit x W bias b o :=
  (val_main_v4_apply (F := Ideal) x W bias (ix2 b o)).trans
    ((congrArg₂ (· + ·) (dot_ref x W b o) (biasB_ref bias b o)).trans (Hebb.logit_def x W bias b o).symm)

/-! ## The softmax along the outputs -/

/-- The host's reduce with a `maximum` body over the second axis of a rank-2 array, at row a: the fold of `max` from the
    initial value's element over the column coordinate. -/
theorem hostRowMax2_apply {n0 n1 : Nat} {φ : FTy} {u : Shape} (y : (⟨2, ![n0, n1]⟩ : Shape).Idx → Ideal φ)
    (init : u.Idx → Ideal φ) (h' : (⟨2, ![n0, n1]⟩ : Shape).ReducesTo [1] ⟨1, ![n0]⟩)
    (h : (⟨2, ![n0, n1]⟩ : Shape).Reduces [1] ⟨1, ![n0]⟩) (hu : 0 < u.numel) (a : Fin n0) :
    Host.reduce (FloatOps.maximumf (F := Ideal) (φ := φ)) y init h' hu (ix1 a)
      = (Finset.univ : Finset (Fin n1)).fold max (init (Shape.Idx.first hu)) (fun c => y (ix2 a c)) :=
  (Host.reduce_eq_fold_single (FloatOps.maximumf (F := Ideal) (φ := φ)) y init h' h hu (ix1 a)).trans
    (Finset.fold_congr fun c _ => congrArg y (funext fun d => Fin.ext (by
      match d with | ⟨0, _⟩ => rfl | ⟨1, _⟩ => rfl)))

/-- The logits divided by the temperature one, at (b, c). -/
theorem row_ref (b : Fin 4096) (c : Fin 2048) :
    val_main_v6 (F := Ideal) x W bias (ix2 b c) = Ideal.div (Hebb.logit x W bias b c) Hebb.one :=
  (val_main_v6_apply (F := Ideal) x W bias (ix2 b c)).trans
    (congrArg₂ Ideal.div (logit_ref x W bias b c)
      ((val_main_v5_apply (F := Ideal) (ix2 b c)).trans (val_main_cst_apply (F := Ideal) _)))

/-- The row's maximum, folded from −∞, at b. -/
theorem rowMax_ref (b : Fin 4096) :
    val_main_v7 (F := Ideal) x W bias (ix1 b)
      = (Finset.univ : Finset (Fin 2048)).fold max Hebb.negInf
          (fun c => Ideal.div (Hebb.logit x W bias b c) Hebb.one) :=
  (hostRowMax2_apply (val_main_v6 (F := Ideal) x W bias) (val_main_cst_0 (F := Ideal))
      Gen.reducesTo_S4096x2048_S4096_d1 (by decide) Gen.h_S_ b).trans
    ((congrArg (fun z => (Finset.univ : Finset (Fin 2048)).fold max z (fun c => val_main_v6 (F := Ideal) x W bias (ix2 b c)))
        (val_main_cst_0_apply (F := Ideal) (Shape.Idx.first Gen.h_S_))).trans
      (Finset.fold_congr fun c _ => row_ref x W bias b c))

/-- Row b of the logits over the temperature one. -/
abbrev row (b : Fin 4096) : Fin 2048 → EReal := fun c => Ideal.div (Hebb.logit x W bias b c) Hebb.one

/-- The maximum of row b, folded from −∞. -/
abbrev rowMax (b : Fin 4096) : EReal := (Finset.univ : Finset (Fin 2048)).fold max Hebb.negInf (row x W bias b)

theorem idx_v11_v10_ix (b : Fin 4096) (c : Fin 2048) : idx_main_v10 (idx_main_v11 (ix2 b c)) = ix1 b :=
  funext fun a => match a with | ⟨0, _⟩ => rfl

theorem idx_v16_v15_ix (b : Fin 4096) (c : Fin 2048) : idx_main_v15 (idx_main_v16 (ix2 b c)) = ix1 b :=
  funext fun a => match a with | ⟨0, _⟩ => rfl

theorem idx_v14_ix (b : Fin 4096) (c : Fin 2048) : idx_main_v14 (ix1 b) c = ix2 b c :=
  funext fun a => match a with | ⟨0, _⟩ => rfl | ⟨1, _⟩ => rfl

/-- The maximum with −∞ taken once more after the reduce is still the row's maximum. -/
theorem reMax_ref (b : Fin 4096) : val_main_v9 (F := Ideal) x W bias (ix1 b) = rowMax x W bias b :=
  (val_main_v9_apply (F := Ideal) x W bias (ix1 b)).trans
    ((congrArg₂ max ((val_main_v8_apply (F := Ideal) (ix1 b)).trans (val_main_cst_1_apply (F := Ideal) _))
        (rowMax_ref x W bias b)).trans
      (SoftmaxRows.max_fold_max_self Finset.univ Hebb.negInf (row x W bias b)))

/-- Kept as a column and broadcast back along the row, at (b, c): the maximum of row b. -/
theorem rowMaxB_ref (b : Fin 4096) (c : Fin 2048) :
    val_main_v11 (F := Ideal) x W bias (ix2 b c) = rowMax x W bias b :=
  (val_main_v11_apply (F := Ideal) x W bias (ix2 b c)).trans
    ((val_main_v10_apply (F := Ideal) x W bias (idx_main_v11 (ix2 b c))).trans
      ((congrArg (val_main_v9 (F := Ideal) x W bias) (idx_v11_v10_ix b c)).trans (reMax_ref x W bias b)))

/-- The exponential of the row entry less the row's maximum, at (b, c). -/
theorem exp_ref (b : Fin 4096) (c : Fin 2048) :
    val_main_v13 (F := Ideal) x W bias (ix2 b c) = Ideal.exp (row x W bias b c - rowMax x W bias b) :=
  (val_main_v13_apply (F := Ideal) x W bias (ix2 b c)).trans
    ((Ideal.hostUnary_exp_def _).trans (congrArg Ideal.exp
      ((val_main_v12_apply (F := Ideal) x W bias (ix2 b c)).trans
        (congrArg₂ (· - ·) (row_ref x W bias b c) (rowMaxB_ref x W bias b c)))))

/-- The row's sum of exponentials, at b: the host's initial zero adds nothing. -/
theorem sumExp_ref (b : Fin 4096) :
    val_main_v14 (F := Ideal) x W bias (ix1 b)
      = ∑ c : Fin 2048, Ideal.exp (row x W bias b c - rowMax x W bias b) :=
  (val_main_v14_apply x W bias (ix1 b)).trans
    ((congrArg₂ (· + ·) ((val_main_cst_2_apply (F := Ideal) _).trans Ideal.ofBits_zero_f32)
        (Finset.sum_congr rfl fun c _ =>
          (congrArg (val_main_v13 (F := Ideal) x W bias) (idx_v14_ix b c)).trans (exp_ref x W bias b c))).trans
      (zero_add _))

/-- Kept as a column and broadcast back along the row, at (b, c): the sum of exponentials of row b. -/
theorem sumExpB_ref (b : Fin 4096) (c : Fin 2048) :
    val_main_v16 (F := Ideal) x W bias (ix2 b c)
      = ∑ c : Fin 2048, Ideal.exp (row x W bias b c - rowMax x W bias b) :=
  (val_main_v16_apply (F := Ideal) x W bias (ix2 b c)).trans
    ((val_main_v15_apply (F := Ideal) x W bias (idx_main_v16 (ix2 b c))).trans
      ((congrArg (val_main_v14 (F := Ideal) x W bias) (idx_v16_v15_ix b c)).trans (sumExp_ref x W bias b)))

/-- The softmax at (b, o). -/
theorem soft_ref (b : Fin 4096) (o : Fin 2048) :
    val_main_v17 (F := Ideal) x W bias (ix2 b o) = Hebb.soft x W bias b o :=
  (val_main_v17_apply (F := Ideal) x W bias (ix2 b o)).trans
    ((congrArg₂ Ideal.div (exp_ref x W bias b o) (sumExpB_ref x W bias b o)).trans
      (Hebb.soft_def x W bias b o).symm)

/-! ## The two sums over the batch -/

theorem lidx_v18_ix (o i : Fin 2048) (b : Fin 4096) : lidx_main_v18 (ix2 o i) b = ix2 b o :=
  funext fun a => match a with | ⟨0, _⟩ => rfl | ⟨1, _⟩ => rfl

theorem ridx_v18_ix (o i : Fin 2048) (b : Fin 4096) : ridx_main_v18 (ix2 o i) b = ix2 b i :=
  funext fun a => match a with | ⟨0, _⟩ => rfl | ⟨1, _⟩ => rfl

theorem idx_v20_ix (o : Fin 2048) (b : Fin 4096) : idx_main_v20 (ix1 o) b = ix2 b o :=
  funext fun a => match a with | ⟨0, _⟩ => rfl | ⟨1, _⟩ => rfl

theorem idx_v22_v21_ix (o i : Fin 2048) : idx_main_v21 (idx_main_v22 (ix2 o i)) = ix1 o :=
  funext fun a => match a with | ⟨0, _⟩ => rfl

/-- softmaxᵀ · x at (o, i): both operands contracted along the batch. -/
theorem yx_ref (o i : Fin 2048) :
    val_main_v18 (F := Ideal) x W bias (ix2 o i) = ∑ b : Fin 4096, Hebb.soft x W bias b o * x (ix2 b i) :=
  (val_main_v18_apply x W bias (ix2 o i)).trans (Finset.sum_congr rfl fun b _ =>
    congrArg₂ (· * ·)
      ((congrArg (val_main_v17 (F := Ideal) x W bias) (lidx_v18_ix o i b)).trans (soft_ref x W bias b o))
      (congrArg x (ridx_v18_ix o i b)))

/-- The column sums of softmax · logits at o, from the host's initial zero. -/
theorem yu_ref (o : Fin 2048) :
    val_main_v20 (F := Ideal) x W bias (ix1 o)
      = Hebb.zero + ∑ b : Fin 4096, Hebb.soft x W bias b o * Hebb.logit x W bias b o :=
  (val_main_v20_apply x W bias (ix1 o)).trans
    (congrArg₂ (· + ·) (val_main_cst_3_apply (F := Ideal) _)
      (Finset.sum_congr rfl fun b _ =>
        (congrArg (val_main_v19 (F := Ideal) x W bias) (idx_v20_ix o b)).trans
          ((val_main_v19_apply (F := Ideal) x W bias (ix2 b o)).trans
            (congrArg₂ (· * ·) (soft_ref x W bias b o) (logit_ref x W bias b o)))))

/-- The column sums kept as a column and broadcast along the inputs, at (o, i). -/
theorem yuB_ref (o i : Fin 2048) :
    val_main_v22 (F := Ideal) x W bias (ix2 o i)
      = Hebb.zero + ∑ b : Fin 4096, Hebb.soft x W bias b o * Hebb.logit x W bias b o :=
  (val_main_v22_apply (F := Ideal) x W bias (ix2 o i)).trans
    ((val_main_v21_apply (F := Ideal) x W bias (idx_main_v22 (ix2 o i))).trans
      ((congrArg (val_main_v20 (F := Ideal) x W bias) (idx_v22_v21_ix o i)).trans (yu_ref x W bias o)))

/-! ## The rate factor -/

theorem idx_call0_v1_ix (o k : Fin 2048) : idx_main_call0_v1 (ix1 o) k = ix2 o k :=
  funext fun a => match a with | ⟨0, _⟩ => rfl | ⟨1, _⟩ => rfl

theorem idx_v36_v35_ix (o i : Fin 2048) : idx_main_v35 (idx_main_v36 (ix2 o i)) = ix1 o :=
  funext fun a => match a with | ⟨0, _⟩ => rfl

/-- The Euclidean norm of row o of the weight, the sum taken from the host's initial zero. -/
theorem norm_ref (o : Fin 2048) : val_main_v27 (F := Ideal) W (ix1 o) = Hebb.rowNorm W o :=
  (val_main_v27_apply (F := Ideal) W (ix1 o)).trans
    ((Ideal.hostUnary_sqrt_def _).trans ((congrArg Ideal.sqrt
      ((val_main_call0_v1_apply W (ix1 o)).trans
        (congrArg₂ (· + ·) (val_main_call0_cst_apply (F := Ideal) _)
          (Finset.sum_congr rfl fun k _ =>
            (congrArg (val_main_call0_v0 (F := Ideal) W) (idx_call0_v1_ix o k)).trans
              (val_main_call0_v0_apply (F := Ideal) W (ix2 o k)))))).trans
      (Hebb.rowNorm_def W o).symm))

/-- |1 − ‖W row‖| at o, the absolute value as the maximum with the negation. -/
theorem dev_ref (o : Fin 2048) : val_main_v30 (F := Ideal) W (ix1 o) = Hebb.dev W o :=
  (val_main_v30_apply (F := Ideal) W (ix1 o)).trans
    ((congrArg (fun z : EReal => max z (-z))
      ((val_main_v29_apply (F := Ideal) W (ix1 o)).trans
        (congrArg₂ (· - ·) ((val_main_v28_apply (F := Ideal) (ix1 o)).trans (val_main_cst_5_apply (F := Ideal) _))
          (norm_ref W o)))).trans
      (Hebb.dev_def W o).symm)

/-- rate · |1 − ‖W row‖|^(1/2) at o. -/
theorem rate_ref (o : Fin 2048) :
    val_main_v34 (F := Ideal) W (ix1 o) = Hebb.rate * Ideal.pow (Hebb.dev W o) Hebb.half :=
  (val_main_v34_apply (F := Ideal) W (ix1 o)).trans
    (congrArg₂ (· * ·) ((val_main_v33_apply (F := Ideal) (ix1 o)).trans (val_main_cst_7_apply (F := Ideal) _))
      ((val_main_v32_apply (F := Ideal) W (ix1 o)).trans
        (congrArg₂ Ideal.pow (dev_ref W o)
          ((val_main_v31_apply (F := Ideal) (ix1 o)).trans (val_main_cst_6_apply (F := Ideal) _)))))

/-- The rate factor kept as a column and broadcast along the inputs, at (o, i). -/
theorem rateB_ref (o i : Fin 2048) :
    val_main_v36 (F := Ideal) W (ix2 o i) = Hebb.rate * Ideal.pow (Hebb.dev W o) Hebb.half :=
  (val_main_v36_apply (F := Ideal) W (ix2 o i)).trans
    ((val_main_v35_apply (F := Ideal) W (idx_main_v36 (ix2 o i))).trans
      ((congrArg (val_main_v34 (F := Ideal) W) (idx_v36_v35_ix o i)).trans (rate_ref W o)))

/-! ## The step -/

/-- (yx − yu · W) · 1/4096 at (o, i). -/
theorem dw_ref (o i : Fin 2048) :
    val_main_v26 (F := Ideal) x W bias (ix2 o i)
      = ((∑ b : Fin 4096, Hebb.soft x W bias b o * x (ix2 b i))
          - (Hebb.zero + ∑ b : Fin 4096, Hebb.soft x W bias b o * Hebb.logit x W bias b o) * W (ix2 o i))
        * Hebb.invBatch :=
  (val_main_v26_apply (F := Ideal) x W bias (ix2 o i)).trans
    (congrArg₂ (· * ·)
      ((val_main_v24_apply (F := Ideal) x W bias (ix2 o i)).trans
        (congrArg₂ (· - ·) (yx_ref x W bias o i)
          ((val_main_v23_apply (F := Ideal) x W bias (ix2 o i)).trans
            (congrArg (· * W (ix2 o i)) (yuB_ref x W bias o i)))))
      ((val_main_v25_apply (F := Ideal) (ix2 o i)).trans (val_main_cst_4_apply (F := Ideal) _)))

/-- The reference's result at (o, i) is the Hebbian step with the rate factor spelled as a power one half. -/
theorem ref_apply (x : S4096x2048.Idx → EReal) (W : S2048x2048.Idx → EReal) (bias : S2048.Idx → EReal) (o i : Fin 2048) :
    val_main_v37 (F := Ideal) x W bias (ix2 o i)
      = Hebb.stepAt (Ideal.pow (Hebb.dev W o) Hebb.half)
          (∑ b : Fin 4096, Hebb.soft x W bias b o * x (ix2 b i))
          (Hebb.zero + ∑ b : Fin 4096, Hebb.soft x W bias b o * Hebb.logit x W bias b o)
          (W (ix2 o i)) :=
  (val_main_v37_apply (F := Ideal) x W bias (ix2 o i)).trans
    ((congrArg₂ (· * ·) (rateB_ref W o i) (dw_ref x W bias o i)).trans
      (Hebb.stepAt_def _ _ _ _).symm)

end Cert.ReferenceIdeal.RefValue

end
-- ==== Proof.Bridge.lean ====
/-
  The two programs' results are one function of the arguments (at the ideal values, for finite inputs).

  At (o, i) the reference's result is `stepAt (dev(o)^(1/2)) (∑_b soft(b,o)·x(b,i)) (0 + ∑_b soft(b,o)·logit(b,o)) W(o,i)` and the
  kernel's is `stepAt (√dev(o)) (A₀ + A₁) (B₀ + B₁) W(o,i)`, `A_h`, `B_h` the sums of the tile contributions over half `h` of
  the grid. The two halves together are all 32 tiles, the tiles' rows are all 4096 batch rows, a leading zero adds nothing,
  and the power one half of an absolute value is its square root.
-/
import proofs.«159458_j55697135895031_2_alg».proof.Proof.KRun
import proofs.«159458_j55697135895031_2_alg».proof.Proof.RefValue

noncomputable section

open scoped BigOperators

open Idealize.ShloMosaic Idealize.ShloMosaic.TcCoe Idealize.SL.Sem Idealize.ShloMosaic.ValueIdx

namespace Cert.KernelIdeal.Bridge

open Cert.KernelIdeal Cert.KernelIdeal.Gen Cert.KernelIdeal.Accum

variable (x : Hebb.SX.Idx → EReal) (W : Hebb.SW.Idx → EReal) (bias : Hebb.SB.Idx → EReal)

/-- The two halves' matrix sums are the sum over the whole batch. -/
theorem halves_yx (o i : Fin 2048) :
    (∑ t' ∈ Hebb.upTo 15, Hebb.yxPart x W bias t' o i) + (∑ t' ∈ Hebb.upTo 31, Hebb.yxPart x W bias t' o i)
      = ∑ b : Fin 4096, Hebb.soft x W bias b o * x (ix2 b i) := by
  rw [Hebb.sum_upTo_total, Hebb.sum_rows_tiles]
  rfl

/-- The two halves' row sums are the sum over the whole batch. -/
theorem halves_yu (o : Fin 2048) :
    (∑ t' ∈ Hebb.upTo 15, Hebb.yuPart x W bias t' o) + (∑ t' ∈ Hebb.upTo 31, Hebb.yuPart x W bias t' o)
      = ∑ b : Fin 4096, Hebb.soft x W bias b o * Hebb.logit x W bias b o := by
  rw [Hebb.sum_upTo_total, Hebb.sum_rows_tiles]
  rfl

variable (m : (ℓ : Loc nD τ sig) → Buf (Elt Ideal) ℓ)

/-- The reference's result term of the kernel's arguments is the kernel's result array. -/
theorem result_eq (c : Dev nD) :
    Cert.ReferenceIdeal.Read.val_main_v37 (F := Ideal) (aX m c) (aW m c) (aB m c) = KRun.result m c := by
  funext j
  obtain ⟨o, i, rfl⟩ : ∃ (o i : Fin 2048), j = ix2 o i := ⟨j 0, j 1, eq_ix2 j⟩
  refine (Cert.ReferenceIdeal.RefValue.ref_apply (aX m c) (aW m c) (aB m c) o i).trans ?_
  rw [KRun.result_def, KTail.tailOf_apply, Final.matArr_apply, Final.matArr_apply, Final.rowArr_apply, Final.rowArr_apply,
    Hebb.rateFactor_eq]
  show _ = Hebb.stepAt _ ((∑ t' ∈ Hebb.upTo 15, _) + (∑ t' ∈ Hebb.upTo 31, _)) ((∑ t' ∈ Hebb.upTo 15, _) + (∑ t' ∈ Hebb.upTo 31, _)) _
  rw [halves_yx, halves_yu]
  show Hebb.stepAt _ _ (Ideal.ofBits .f32 0x00000000#32 + _) _ = _
  rw [Ideal.ofBits_zero_f32, zero_add]

end Cert.KernelIdeal.Bridge

end
-- ==== Proof.lean ====
/-
  The certificate: a Hebbian weight update computed by a batch-tiled kernel on two halves of a grid, against the plain
  reference.

  Both programs compute, for a batch `x` (4096 × 2048), a weight `W` (2048 × 2048) and a bias, the step
  `rate(o) · (yx(o,i) − yu(o) · W(o,i)) / 4096` with `yx = softmax(x Wᵀ + bias)ᵀ x`, `yu` the column sums of softmax × logits,
  and `rate(o)` the constant rate times the square root of `|1 − ‖W(o,·)‖|`.

  The kernel splits both operands of the first product into a part representable in a narrower format and a remainder,
  and uses three of the four products; at the ideal values narrowing is the identity, so for FINITE inputs both remainders
  are `a − a = 0`, their products vanish, and the logits are the reference's. It accumulates `yx` and `yu` over 16 batch
  tiles on each half of the grid and adds the two halves afterwards; addition on the extended reals is commutative and
  associative, so the regrouped sums are the reference's sums over the whole batch. The reference spells the rate's root
  as a power with exponent one half, which agrees with the square root at every absolute value.

  Finiteness is used exactly where `a − a = 0` is: it fails at `±∞`.
-/
import proofs.«159458_j55697135895031_2_alg».proof.Defs
import proofs.«159458_j55697135895031_2_alg».proof.Proof.Gen.Kernel
import proofs.«159458_j55697135895031_2_alg».proof.Proof.Gen.Kernel.Skeleton
import proofs.«159458_j55697135895031_2_alg».proof.Proof.Gen.Kernel.Launch
import proofs.«159458_j55697135895031_2_alg».proof.Proof.Gen.Kernel.Points
import proofs.«159458_j55697135895031_2_alg».proof.Proof.Gen.Kernel.Frame
import proofs.«159458_j55697135895031_2_alg».proof.Proof.Gen.KernelIdeal
import proofs.«159458_j55697135895031_2_alg».proof.Proof.Gen.KernelIdeal.Skeleton
import proofs.«159458_j55697135895031_2_alg».proof.Proof.Gen.KernelIdeal.Launch
import proofs.«159458_j55697135895031_2_alg».proof.Proof.Gen.KernelIdeal.Points
import proofs.«159458_j55697135895031_2_alg».proof.Proof.Gen.KernelIdeal.Frame
import proofs.«159458_j55697135895031_2_alg».proof.Proof.Gen.ReferenceIdeal
import proofs.«159458_j55697135895031_2_alg».proof.Proof.Gen.Pre_finite_inputs
import proofs.«159458_j55697135895031_2_alg».proof.Proof.Gen.ReferenceIdeal.Run
import proofs.«159458_j55697135895031_2_alg».proof.Proof.Gen.ReferenceIdeal.Read
import Idealize.ShloMosaic.Adequacy
import Idealize.ShloMosaic.Init

import proofs.«159458_j55697135895031_2_alg».proof.Proof.Finite
import proofs.«159458_j55697135895031_2_alg».proof.Proof.Bridge

noncomputable section

namespace Cert.Proof

open Idealize.ShloMosaic Idealize.SL.Sem

/-- The three frames: the two kernels' are the frame runs of their pipelines; the reference's is its run with the result
    dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: widening a narrowed tile back is the identity at the ideal values. -/
theorem preserves : Cert.preserves_Kernel_KernelIdeal :=
  IdealRules.truncf_extf.statement Cert.KernelIdeal.S128x2048 .f32 .bf16

/-- From memories agreeing on the arguments both idealized programs end with the same result array: the kernel's at the
    host tail of its two accumulator arrays, the reference's at its own term of the same arguments, one function of them
    for finite inputs. -/
theorem algebraic : Cert.algebraic_KernelIdeal_ReferenceIdeal := by
  intro m ρ m' ρ' hpre hagree
  have hfin : ∀ c, Cert.KernelIdeal.Accum.Finite m c := fun c => by
    have h := Cert.Pre_finite_inputs.Finite.finite_of_pre _ _ _ (hpre c)
    exact ⟨h.1, h.2.1⟩
  refine ⟨fun c => Cert.KernelIdeal.KRun.result m c, Cert.KernelIdeal.KRun.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2.1, (hagree c).2.2]
  exact Cert.KernelIdeal.Bridge.result_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
